-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel

variable [Facts]

def fn {F : FTy → Type} [FloatOps F] (main_arg0 : FVec F S4x4096x64 .f32) (main_arg1 : FVec F S4x4096x64 .f32) (main_arg2 : FVec F S4x4096x64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S4x4096x64 .f32 := Host.absf main_arg1
  let main_cst_0 : FVec F S_ .f32 := constant S_ .f32 0x7F800000#32
  let main_v5 : FVec F S4x4096x64 .f32 := broadcastInDim S4x4096x64 ![] bcast_S_S4x4096x64 main_cst_0
  let main_v6 : IVec S4x4096x64 1 := cmpf .olt main_v4 main_v5
  let main_c_1 : IVec S_ 1 := constantI S_ 1 1#1
  let main_v7 : IVec S_ 1 := (fun x v => Host.reduce IntOp.andi x v reducesTo_S4x4096x64_S_d0_1_2 h_S_) main_v6 main_c_1
  let main_v8 : IVec S_ 1 := andi main_v3 main_v7
  let main_v9 : FVec F S4x4096x64 .f32 := Host.absf main_arg2
  let main_cst_2 : FVec F S_ .f32 := constant S_ .f32 0x7F800000#32
  let main_v10 : FVec F S4x4096x64 .f32 := broadcastInDim S4x4096x64 ![] bcast_S_S4x4096x64 main_cst_2
  let main_v11 : IVec S4x4096x64 1 := cmpf .olt main_v9 main_v10
  let main_c_3 : IVec S_ 1 := constantI S_ 1 1#1
  let main_v12 : IVec S_ 1 := (fun x v => Host.reduce IntOp.andi x v reducesTo_S4x4096x64_S_d0_1_2 h_S_) main_v11 main_c_3
  let main_v13 : IVec S_ 1 := andi main_v8 main_v12
  main_v13
-- ==== Kernel.lean ====
abbrev S4x4096x64 : Shape := ⟨3, ![4, 4096, 64]⟩
abbrev S4x512x64 : Shape := ⟨3, ![4, 512, 64]⟩
abbrev S4x512x1 : Shape := ⟨3, ![4, 512, 1]⟩
abbrev S4x512x512 : Shape := ⟨3, ![4, 512, 512]⟩
abbrev S4x512 : Shape := ⟨2, ![4, 512]⟩

abbrev nBuf : Space → Nat
  | .hbm => 4
  | .vmem => 9
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S4x4096x64, .f32⟩
  | .local _ .vmem, ⟨0, _⟩ => ⟨S4x512x64, .f32⟩
  | .local _ .vmem, ⟨1, _⟩ => ⟨S4x512x64, .f32⟩
  | .local _ .vmem, ⟨2, _⟩ => ⟨S4x4096x64, .f32⟩
  | .local _ .vmem, ⟨3, _⟩ => ⟨S4x4096x64, .f32⟩
  | .local _ .vmem, ⟨4, _⟩ => ⟨S4x512x64, .f32⟩
  | .local _ .vmem, ⟨5, _⟩ => ⟨S4x512x64, .f32⟩
  | .local _ .vmem, ⟨6, _⟩ => ⟨S4x512x1, .f32⟩
  | .local _ .vmem, ⟨7, _⟩ => ⟨S4x512x1, .f32⟩
  | .local _ .vmem, ⟨8, _⟩ => ⟨S4x512x64, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v16 : BitVec 32 := Scalar.addi c0_i32 c8_i32
  let c1_i32 : BitVec 32 := 1#32
  ⟨c0_i32, v16, c1_i32⟩
def k0_mult1 (k0_t1 : Fin k0_t1_loop.trips) : BitVec 32 :=
  let c0_i32_25 : BitVec 32 := 0#32
  let c0_i32 : BitVec 32 := 0#32
  let c1_i32 : BitVec 32 := 1#32
  let arg8 : BitVec 32 := Scf.iv c0_i32 c1_i32 k0_t1
  let c1_i32_24 : BitVec 32 := 1#32
  let v22 : BitVec 32 := Scalar.muli arg8 c1_i32_24
  let v23 : BitVec 32 := Scalar.addi c0_i32_25 v22
  let c512_i32 : BitVec 32 := 512#32
  let v24 : BitVec 32 := Scalar.muli v23 c512_i32
  v24
def k0_off1 (k0_t1 : Fin k0_t1_loop.trips) : Fin 3 → Nat :=
  let c0_26 : Index := 0#32
  let c0_i32_25 : BitVec 32 := 0#32
  let c0_i32 : BitVec 32 := 0#32
  let c1_i32 : BitVec 32 := 1#32
  let arg8 : BitVec 32 := Scf.iv c0_i32 c1_i32 k0_t1
  let c1_i32_24 : BitVec 32 := 1#32
  let v22 : BitVec 32 := Scalar.muli arg8 c1_i32_24
  let v23 : BitVec 32 := Scalar.addi c0_i32_25 v22
  let c512_i32 : BitVec 32 := 512#32
  let v24 : BitVec 32 := Scalar.muli v23 c512_i32
  let v25 : BitVec 32 := v24
  let v26 : Index := Scalar.indexCast v25
  let c0_27 : Index := 0#32
  ![0, v26.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S4x512x1_S4x512x1_0_0_0 : ∀ a, (![0, 0, 0] : Fin 3 → Nat) a + S4x512x1.size a ≤ S4x512x1.size a
  h_S4x512x1 : 0 < S4x512x1.numel
  shapeCasts_S4x512x1_S4x512x1 : S4x512x1.ShapeCasts S4x512x1
  inb_S4x512x64_S4x512x64_0_0_0 : ∀ a, (![0, 0, 0] : Fin 3 → Nat) a + S4x512x64.size a ≤ S4x512x64.size a
  h_S4x512x64 : 0 < S4x512x64.numel
  shapeCasts_S4x512x64_S4x512x64 : S4x512x64.ShapeCasts S4x512x64
  bitsLt_bf16_f32 : FTy.bits .bf16 < FTy.bits .f32
  reduces_S4x512x512_S4x512 : S4x512x512.Reduces [2] S4x512
  shapeCasts_S4x512_S4x512x1 : S4x512.ShapeCasts S4x512x1
  broadcasts_S4x512x1_S4x512x512 : S4x512x1.Broadcasts S4x512x512
  broadcasts_S4x512x1_S4x512x64 : S4x512x1.Broadcasts S4x512x64
  dot_S4x512x64_S4x512x64_S4x512x512_2_2_1_1_0_0_wf : DotDims.WF S4x512x64 S4x512x64 S4x512x512 [2] [2] [1] [1] [0] [0]
  dot_S4x512x512_S4x512x64_S4x512x64_2_1_1_2_0_0_wf : DotDims.WF S4x512x512 S4x512x64 S4x512x64 [2] [1] [1] [2] [0] [0]
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S4x512x64.size a ≤ S4x4096x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x64.size a ≤ S4x4096x64.size a
  hwx0_0 : ∀ i : grid0.Coords, EltTy.bits .f32 = 32 ∨ (Rect.block (s := S4x4096x64) S4x512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x4096x64.size a ≤ S4x4096x64.size a
  hwx0_1 : ∀ i : grid0.Coords, EltTy.bits .f32 = 32 ∨ (Rect.block (s := S4x4096x64) S4x4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x4096x64.size a ≤ S4x4096x64.size a
  hwx0_2 : ∀ i : grid0.Coords, EltTy.bits .f32 = 32 ∨ (Rect.block (s := S4x4096x64) S4x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x512x64.size a ≤ S4x4096x64.size a
  hwx0_3 : ∀ i : grid0.Coords, EltTy.bits .f32 = 32 ∨ (Rect.block (s := S4x4096x64) S4x512x64.size (cc0_transform_3 i) (hinb0_3 i)).WholeWords (EltTy.packing .f32)

variable [Facts₀]

def dot_S4x512x64_S4x512x64_S4x512x512_2_2_1_1_0_0 : DotDims S4x512x64 S4x512x64 S4x512x512 where
  lhsContracting := [2]
  rhsContracting := [2]
  lhsNonContracting := [1]
  rhsNonContracting := [1]
  lhsBatch := [0]
  rhsBatch := [0]
  wf := dot_S4x512x64_S4x512x64_S4x512x512_2_2_1_1_0_0_wf
def dot_S4x512x512_S4x512x64_S4x512x64_2_1_1_2_0_0 : DotDims S4x512x512 S4x512x64 S4x512x64 where
  lhsContracting := [2]
  rhsContracting := [1]
  lhsNonContracting := [1]
  rhsNonContracting := [2]
  lhsBatch := [0]
  rhsBatch := [0]
  wf := dot_S4x512x512_S4x512x64_S4x512x64_2_1_1_2_0_0_wf

abbrev win0_0 : Pipeline.Window sig grid0 :=
  Pipeline.Window.ofSpec (Memref.whole main_arg0) S4x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x4096x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x64 : Shape := ⟨3, ![4, 4096, 64]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 25
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4x4096x4096, .f32⟩
  | .hbm, ⟨8, _⟩ => ⟨S4x4096x4096, .f32⟩
  | .hbm, ⟨9, _⟩ => ⟨S4x4096x4096, .f32⟩
  | .hbm, ⟨10, _⟩ => ⟨S_, .f32⟩
  | .hbm, ⟨11, _⟩ => ⟨S4x4096, .f32⟩
  | .hbm, ⟨12, _⟩ => ⟨S_, .f32⟩
  | .hbm, ⟨13, _⟩ => ⟨S4x4096, .f32⟩
  | .hbm, ⟨14, _⟩ => ⟨S4x4096, .f32⟩
  | .hbm, ⟨15, _⟩ => ⟨S4x4096x1, .f32⟩
  | .hbm, ⟨16, _⟩ => ⟨S4x4096x4096, .f32⟩
  | .hbm, ⟨17, _⟩ => ⟨S4x4096x4096, .f32⟩
  | .hbm, ⟨18, _⟩ => ⟨S4x4096x4096, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S4x4096x4096, .f32⟩
  | .hbm, ⟨23, _⟩ => ⟨S4x4096x4096, .f32⟩
  | .hbm, ⟨24, _⟩ => ⟨S4x4096x64, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.LibWholeStore.lean ====
/-
  Whole-block stores and loads of a buffer.

  A store through the rectangle that is the whole shape overwrites every element. So when such a store is the last of a
  list of stores into a buffer, the buffer reads back as that store's payload, whatever the earlier stores wrote and
  whatever the buffer held before; and a load through that rectangle reads the buffer's contents as they are.
-/
import Idealize.ShloMosaic.Lib.Pipeline.Value

noncomputable section

namespace Idealize.ShloMosaic.WholeStore

open Idealize.ShloMosaic

variable {Val : EltTy → Type} [∀ e, Nonempty (Val e)]

/-- The offsets of an access to a whole block of rank three are all zero. -/
theorem off_zero3 : (![0, 0, 0] : Fin 3 → ℕ) = fun _ => 0 := by
  funext a; fin_cases a <;> rfl

/-- A whole-block store at the head of a list of stores (the last one made) reads back as its payload, whatever was
    stored before it and whatever the buffer held. -/
theorem read_whole_head {sig : RefSig} {κ : Kind} {sp : Space} {S : Shape} {e : EltTy} (v : View sig κ sp S e)
    (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩)]
  exact View.canon_cons_unit_zero h inb w L

/-- A load of a whole block reads the buffer's contents. -/
theorem readAt_whole {sig : RefSig} {κ : Kind} {sp : Space} {S : Shape} {e : EltTy} (v : View sig κ sp S e)
    (f : v.ty.Contents Val) {off : Fin S.rank → ℕ} (h : off = fun _ => 0)
    (inb : ∀ a, off a + S.size a ≤ S.size a) :
    View.readAt Val v (Rect.unit off S.size inb).toLoadRect f = v.read Val f :=
  (View.readAt_eq_ld v f _).trans (View.ld_unit_zero h inb _)

end Idealize.ShloMosaic.WholeStore

end
-- ==== Proof.LoopValue.lean ====
/-
  One trip of the key/value loop, as values.

  The kernel keeps three scratch blocks across the loop: the running row maxima, the running row sums and the
  accumulator. A trip loads key tile and value tile number k (rows 512 k … 512 k + 511 of the resident arrays),
  reads the three scratch blocks, and stores each of them once, whole. So what a trip leaves in each scratch
  block is one function of what it found there and of the two tiles; the loop is that function iterated.
-/
import proofs.«173579_j74363063763371_2_alg».proof.Proof.Gen.KernelIdeal.Value
import Idealize.ShloMosaic.Lib.Pipeline.Value
import proofs.«173579_j74363063763371_2_alg».proof.Proof.LibWholeStore

set_option maxRecDepth 16384

noncomputable section

namespace Cert.KernelIdeal.Loop

open Idealize.ShloMosaic Idealize.ShloMosaic.TcCoe Idealize.SL.Sem
open Cert.KernelIdeal Cert.KernelIdeal.Gen Idealize.ShloMosaic.WholeStore

variable {F : FTy → Type} [FloatOps F]

/-- The same for the two block shapes the kernel loads whole. -/
theorem readAt_whole_col {sig : RefSig} {κ : Kind} {sp : Space} (v : View sig κ sp S4x512x1 .f32)
    (f : v.ty.Contents (Elt F)) (inb : ∀ a, (![0, 0, 0] : Fin 3 → ℕ) a + S4x512x1.size a ≤ S4x512x1.size a) :
    View.readAt (Elt F) v (Rect.unit (s := S4x512x1) ![0, 0, 0] S4x512x1.size inb).toLoadRect f = v.read (Elt F) f :=
  readAt_whole v f off_zero3 inb

theorem readAt_whole_blk {sig : RefSig} {κ : Kind} {sp : Space} (v : View sig κ sp S4x512x64 .f32)
    (f : v.ty.Contents (Elt F)) (inb : ∀ a, (![0, 0, 0] : Fin 3 → ℕ) a + S4x512x64.size a ≤ S4x512x64.size a) :
    View.readAt (Elt F) v (Rect.unit (s := S4x512x64) ![0, 0, 0] S4x512x64.size inb).toLoadRect f = v.read (Elt F) f :=
  readAt_whole v f off_zero3 inb

/-- Tile j of a resident [4, 4096, 64] array: its rows 512 j … 512 j + 511, as the trip's load reads them. -/
def tile (X : Vec F S4x4096x64 .f32) (j : Fin k0_t1_loop.trips) : Vec F S4x512x64 .f32 :=
  View.ld X (Rect.unit (s := S4x4096x64) (k0_off1 j) S4x512x64.size (k0_off1_inb j))

section Trip

variable (𝒱 : Variants) (c : Dev nD) (bd : Option 𝒱.V) (i : grid0.Coords)
  (arg1 : Memref sig .tc .vmem S4x512x64 .f32) (harg1 : arg1.IsWhole)
  (arg2 : Memref sig .tc .vmem S4x4096x64 .f32) (harg2 : arg2.IsWhole)
  (arg3 : Memref sig .tc .vmem S4x4096x64 .f32) (harg3 : arg3.IsWhole)
  (arg4 : Memref sig .tc .vmem S4x512x64 .f32) (harg4 : arg4.IsWhole)
  (arg5 : Memref sig .tc .vmem S4x512x1 .f32) (harg5 : arg5.IsWhole)
  (arg6 : Memref sig .tc .vmem S4x512x1 .f32) (harg6 : arg6.IsWhole)
  (arg7 : Memref sig .tc .vmem S4x512x64 .f32) (harg7 : arg7.IsWhole)
  (v12 : Vec F S4x512x64 .f32) (X2 : BufTy.Contents (Elt F) arg2.view.ty) (X3 : BufTy.Contents (Elt F) arg3.view.ty)

/-- The pieces trip k stores into the three scratch blocks: one whole-block store each, of the new maxima, the new
    sums and the new accumulator, each a function of the contents the trip finds. -/
theorem trip_pieces (k : Fin k0_t1_loop.trips) (f5 : BufTy.Contents (Elt F) arg5.view.ty)
    (f6 : BufTy.Contents (Elt F) arg6.view.ty) (f7 : BufTy.Contents (Elt F) arg7.view.ty) :
    tripL_k0_t1 (F := F) 𝒱 c bd i arg1 harg1 arg2 harg2 arg3 harg3 arg4 harg4 arg5 harg5 arg6 harg6 arg7 harg7 v12 X2 X3 k f5 f6 f7
      = ([⟨Rect.unit ![0, 0, 0] S4x512x1.size inb_S4x512x1_S4x512x1_0_0_0,
            k0_pay6 (k0_pay9 (k0_pay4 v12)
              (View.readAt (Elt F) arg2.view (Rect.unit (s := S4x4096x64) (k0_off1 k) S4x512x64.size (k0_off1_inb k)).toLoadRect X2)
              (View.readAt (Elt F) arg5.view (Rect.unit ![0, 0, 0] S4x512x1.size inb_S4x512x1_S4x512x1_0_0_0).toLoadRect f5))⟩],
         [⟨Rect.unit ![0, 0, 0] S4x512x1.size inb_S4x512x1_S4x512x1_0_0_0,
            k0_pay12 (k0_pay4 v12)
              (View.readAt (Elt F) arg2.view (Rect.unit (s := S4x4096x64) (k0_off1 k) S4x512x64.size (k0_off1_inb k)).toLoadRect X2)
              (View.readAt (Elt F) arg5.view (Rect.unit ![0, 0, 0] S4x512x1.size inb_S4x512x1_S4x512x1_0_0_0).toLoadRect f5)
              (View.readAt (Elt F) arg6.view (Rect.unit ![0, 0, 0] S4x512x1.size inb_S4x512x1_S4x512x1_0_0_0).toLoadRect f6)⟩],
         [⟨Rect.unit ![0, 0, 0] S4x512x64.size inb_S4x512x64_S4x512x64_0_0_0,
            k0_pay5 (k0_pay13 (k0_pay4 v12)
              (View.readAt (Elt F) arg2.view (Rect.unit (s := S4x4096x64) (k0_off1 k) S4x512x64.size (k0_off1_inb k)).toLoadRect X2)
              (View.readAt (Elt F) arg3.view (Rect.unit (s := S4x4096x64) (k0_off1 k) S4x512x64.size (k0_off1_inb k)).toLoadRect X3)
              (View.readAt (Elt F) arg5.view (Rect.unit ![0, 0, 0] S4x512x1.size inb_S4x512x1_S4x512x1_0_0_0).toLoadRect f5)
              (View.readAt (Elt F) arg7.view (Rect.unit ![0, 0, 0] S4x512x64.size inb_S4x512x64_S4x512x64_0_0_0).toLoadRect f7))⟩]) := by
  unfold tripL_k0_t1 trip_k0_t1
  rfl

end Trip

/-- The three scratch blocks: row maxima, row sums, accumulator. -/
abbrev Scratch (F : FTy → Type) [FloatOps F] : Type :=
  Vec F S4x512x1 .f32 × Vec F S4x512x1 .f32 × Vec F S4x512x64 .f32

/-- What one trip leaves in the scratch blocks, from the scaled queries q, its key tile, its value tile and what it
    found: the maxima joined with the tile's row maxima; the sums rescaled plus the tile's row sums of
    exponentials; the accumulator rescaled plus the tile's exponentials times the value tile. -/
def step (q : FVec F S4x512x64 .bf16) (kt vt : Vec F S4x512x64 .f32) (st : Scratch F) : Scratch F :=
  (k0_pay6 (k0_pay9 q kt st.1), k0_pay12 q kt st.1 st.2.1, k0_pay5 (k0_pay13 q kt vt st.1 st.2.2))

/-- The scratch blocks after the first n trips, from the query block x0 and the resident key and value arrays: the
    initial fill (−∞, 0, 0), then one step per tile. -/
def stateAt (x0 : Vec F S4x512x64 .f32) (x1 x2 : Vec F S4x4096x64 .f32) : ℕ → Scratch F
  | 0 => (k0_pay1, k0_pay2, k0_pay3)
  | n + 1 =>
    if h : n < k0_t1_loop.trips then step (k0_pay4 x0) (tile x1 ⟨n, h⟩) (tile x2 ⟨n, h⟩) (stateAt x0 x1 x2 n)
    else stateAt x0 x1 x2 n

theorem stateAt_succ (x0 : Vec F S4x512x64 .f32) (x1 x2 : Vec F S4x4096x64 .f32) (n : ℕ) (h : n < k0_t1_loop.trips) :
    stateAt x0 x1 x2 (n + 1) = step (k0_pay4 x0) (tile x1 ⟨n, h⟩) (tile x2 ⟨n, h⟩) (stateAt x0 x1 x2 n) := by
  rw [stateAt, dif_pos h]

section Inv

variable (𝒱 : Variants) (c : Dev nD) (bd : Option 𝒱.V) (i : grid0.Coords)
  (arg1 : Memref sig .tc .vmem S4x512x64 .f32) (harg1 : arg1.IsWhole)
  (arg2 : Memref sig .tc .vmem S4x4096x64 .f32) (harg2 : arg2.IsWhole)
  (arg3 : Memref sig .tc .vmem S4x4096x64 .f32) (harg3 : arg3.IsWhole)
  (arg4 : Memref sig .tc .vmem S4x512x64 .f32) (harg4 : arg4.IsWhole)
  (arg5 : Memref sig .tc .vmem S4x512x1 .f32) (harg5 : arg5.IsWhole)
  (arg6 : Memref sig .tc .vmem S4x512x1 .f32) (harg6 : arg6.IsWhole)
  (arg7 : Memref sig .tc .vmem S4x512x64 .f32) (harg7 : arg7.IsWhole)
  (v12 : Vec F S4x512x64 .f32) (X2 : BufTy.Contents (Elt F) arg2.view.ty) (X3 : BufTy.Contents (Elt F) arg3.view.ty)
  (G5 : BufTy.Contents (Elt F) arg5.view.ty) (G6 : BufTy.Contents (Elt F) arg6.view.ty) (G7 : BufTy.Contents (Elt F) arg7.view.ty)

/-- The scratch blocks read back after the stores of the first n trips, over the contents G at loop entry. -/
def readback (n : ℕ) : Scratch F :=
  (arg5.view.read (Elt F) (arg5.view.writes (Elt F) G5 (pb_k0_t1 (F := F) 𝒱 c bd i arg1 harg1 arg2 harg2 arg3 harg3 arg4 harg4 arg5 harg5 arg6 harg6 arg7 harg7 v12 X2 X3 G5 G6 G7 n).1),
   arg6.view.read (Elt F) (arg6.view.writes (Elt F) G6 (pb_k0_t1 (F := F) 𝒱 c bd i arg1 harg1 arg2 harg2 arg3 harg3 arg4 harg4 arg5 harg5 arg6 harg6 arg7 harg7 v12 X2 X3 G5 G6 G7 n).2.1),
   arg7.view.read (Elt F) (arg7.view.writes (Elt F) G7 (pb_k0_t1 (F := F) 𝒱 c bd i arg1 harg1 arg2 harg2 arg3 harg3 arg4 harg4 arg5 harg5 arg6 harg6 arg7 harg7 v12 X2 X3 G5 G6 G7 n).2.2))

/-- One more trip is one step on what is read back. -/
theorem readback_succ (n : ℕ) (hn : n < k0_t1_loop.trips) :
    readback (F := F) 𝒱 c bd i arg1 harg1 arg2 harg2 arg3 harg3 arg4 harg4 arg5 harg5 arg6 harg6 arg7 harg7 v12 X2 X3 G5 G6 G7 (n + 1)
      = step (k0_pay4 v12) (tile (arg2.view.read (Elt F) X2) ⟨n, hn⟩) (tile (arg3.view.read (Elt F) X3) ⟨n, hn⟩)
          (readback (F := F) 𝒱 c bd i arg1 harg1 arg2 harg2 arg3 harg3 arg4 harg4 arg5 harg5 arg6 harg6 arg7 harg7 v12 X2 X3 G5 G6 G7 n) := by
  have hs : pb_k0_t1 (F := F) 𝒱 c bd i arg1 harg1 arg2 harg2 arg3 harg3 arg4 harg4 arg5 harg5 arg6 harg6 arg7 harg7 v12 X2 X3 G5 G6 G7 (n + 1) = _ :=
    pb_k0_t1_succ (F := F) 𝒱 c bd i arg1 harg1 arg2 harg2 arg3 harg3 arg4 harg4 arg5 harg5 arg6 harg6 arg7 harg7 v12 X2 X3 G5 G6 G7 ⟨n, hn⟩
  rw [trip_pieces] at hs
  unfold readback step
  rw [hs]
  dsimp only
  rw [List.singleton_append, List.singleton_append, List.singleton_append,
    read_whole_head _ _ off_zero3, read_whole_head _ _ off_zero3, read_whole_head _ _ off_zero3]
  rw [readAt_whole_col arg5.view, readAt_whole_col arg6.view, readAt_whole_blk arg7.view]
  rfl

/-- So, when the loop is entered with the scratch blocks holding the initial fill, after n trips they hold the
    state after n steps. -/
theorem readback_eq (h5 : arg5.view.read (Elt F) G5 = k0_pay1) (h6 : arg6.view.read (Elt F) G6 = k0_pay2)
    (h7 : arg7.view.read (Elt F) G7 = k0_pay3) (n : ℕ) (hn : n ≤ k0_t1_loop.trips) :
    readback (F := F) 𝒱 c bd i arg1 harg1 arg2 harg2 arg3 harg3 arg4 harg4 arg5 harg5 arg6 harg6 arg7 harg7 v12 X2 X3 G5 G6 G7 n
      = stateAt v12 (arg2.view.read (Elt F) X2) (arg3.view.read (Elt F) X3) n := by
  induction n with
  | zero =>
    unfold readback
    rw [pb_k0_t1.eq_1]
    simp only [View.writes_nil, h5, h6, h7, stateAt]
  | succ n ih =>
    rw [readback_succ (F := F) 𝒱 c bd i arg1 harg1 arg2 harg2 arg3 harg3 arg4 harg4 arg5 harg5 arg6 harg6 arg7 harg7 v12 X2 X3 G5 G6 G7 n hn, stateAt_succ _ _ _ n hn, ih (Nat.le_of_lt hn)]

end Inv

section Out

variable (c : Dev nD) (i : grid0.Coords)
  (arg1 : Memref sig .tc .vmem S4x512x64 .f32) (harg1 : arg1.IsWhole)
  (arg2 : Memref sig .tc .vmem S4x4096x64 .f32) (harg2 : arg2.IsWhole)
  (arg3 : Memref sig .tc .vmem S4x4096x64 .f32) (harg3 : arg3.IsWhole)
  (arg4 : Memref sig .tc .vmem S4x512x64 .f32) (harg4 : arg4.IsWhole)
  (arg5 : Memref sig .tc .vmem S4x512x1 .f32) (harg5 : arg5.IsWhole)
  (arg6 : Memref sig .tc .vmem S4x512x1 .f32) (harg6 : arg6.IsWhole)
  (arg7 : Memref sig .tc .vmem S4x512x64 .f32) (harg7 : arg7.IsWhole)

/-- The loop runs 8 trips. -/
theorem trips_eq : k0_t1_loop.trips = 8 := by decide +kernel

/-- WHAT THE BODY LEAVES IN THE OUTPUT BLOCK, from the query block x0 and the resident key and value arrays x1, x2:
    the accumulator after all the trips divided, row by row, by the sums after all the trips. -/
theorem out_eq (x0 : Vec F S4x512x64 .f32) (x1 x2 : Vec F S4x4096x64 .f32) :
    out0_A_3 c i arg1 harg1 arg2 harg2 arg3 harg3 arg4 harg4 arg5 harg5 arg6 harg6 arg7 harg7 x0 x1 x2
      = k0_pay7 (stateAt x0 x1 x2 k0_t1_loop.trips).2.2 (stateAt x0 x1 x2 k0_t1_loop.trips).2.1 := by
  have h5 : arg5.view.read (Elt F) (arg5.view.writes (Elt F) arg5.view.junk (kernelRun0_A.sl.HS0_1 (F := F))) = k0_pay1 := by
    unfold kernelRun0_A.sl.HS0_1; exact read_whole_head _ _ off_zero3 _ _ _
  have h6 : arg6.view.read (Elt F) (arg6.view.writes (Elt F) arg6.view.junk (kernelRun0_A.sl.HS1_1 (F := F))) = k0_pay2 := by
    unfold kernelRun0_A.sl.HS1_1; exact read_whole_head _ _ off_zero3 _ _ _
  have h7 : arg7.view.read (Elt F) (arg7.view.writes (Elt F) arg7.view.junk (kernelRun0_A.sl.HS2_1 (F := F))) = k0_pay3 := by
    unfold kernelRun0_A.sl.HS2_1; exact read_whole_head _ _ off_zero3 _ _ _
  have hb := readback_eq (F := F) Variants.none c none i arg1 harg1 arg2 harg2 arg3 harg3 arg4 harg4 arg5 harg5 arg6 harg6 arg7 harg7
    (View.readAt (Elt F) arg1.view (Rect.unit (s := S4x512x64) ![0, 0, 0] S4x512x64.size inb_S4x512x64_S4x512x64_0_0_0).toLoadRect (harg1.unread x0))
    (harg2.unread x1) (harg3.unread x2) _ _ _ h5 h6 h7 k0_t1_loop.trips (le_refl _)
  rw [readAt_whole_blk arg1.view, harg1.read_unread, harg2.read_unread, harg3.read_unread] at hb
  unfold out0_A_3
  rw [View.read_writes_eq_canon _ _ _ (cover0_A_3 c i arg1 harg1 arg2 harg2 arg3 harg3 arg4 harg4 arg5 harg5 arg6 harg6 arg7 harg7 x0 x1 x2)]
  unfold kernelRun0_A
  dsimp only
  rw [View.canon_unit_zero off_zero3]
  unfold kernelRun0_A.sl.v17 kernelRun0_A.sl.v18
  rw [readAt_whole_blk arg7.view, readAt_whole_col arg6.view, View.writes_append, View.writes_append,
    readAt_whole_blk arg1.view, harg1.read_unread, ← hb]
  rfl

end Out

end Cert.KernelIdeal.Loop

end
-- ==== Proof.LibOnlineSoftmax.lean ====
/-
  The online softmax, on the extended reals.

  A row of scores `s k` (a real, or `⊥` for a masked entry) is met tile by tile. A kernel keeps a running maximum `M`,
  a running sum `l` and an accumulator `a`; when a new tile raises the maximum from `M'` to `M` it multiplies what it
  holds by `exp (M' - M)` and adds the new tile's terms `exp (s k - M)`. Here: every such term is a real number in
  `[0, 1]` (`exp_sub_eq_coe`, with `⊥ - M = ⊥` and `exp ⊥ = 0` covering a masked entry and the start `M' = ⊥`); the
  rescaling is exact, `exp (M' - M) · exp (s - M') = exp (s - M)` (`wt_rescale`); so after any number of tiles the
  kernel holds `∑ exp (s k - M)` and `∑ exp (s k - M) · v k` over the entries seen (`step`); and once some entry is
  unmasked the quotient of the two is the softmax-weighted sum `∑ (exp (s k - M) / L) · v k` (`quotient_eq`).
-/
import Idealize.ShloMosaic.PureOps.Ideal

noncomputable section

open scoped BigOperators

namespace Cert.Lib.OnlineSoftmax

open Idealize.ShloMosaic

variable {ι : Type}

/-- The coercion of a finite real sum is the sum of the coercions. -/
theorem coe_sum (A : Finset ι) (f : ι → ℝ) : ((∑ k ∈ A, f k : ℝ) : EReal) = ∑ k ∈ A, (f k : EReal) := by
  classical
  refine Finset.induction_on A (by simp) ?_
  intro a A ha ih
  rw [Finset.sum_insert ha, Finset.sum_insert ha, EReal.coe_add, ih]

/-- The weight of a score `s` against a maximum `M`, as a real number. -/
def wt (M s : EReal) : ℝ := (Ideal.exp (s - M)).toReal

/-- A masked entry has weight zero against any maximum. -/
@[simp] theorem wt_bot (M : EReal) : wt M ⊥ = 0 := by
  simp [wt, EReal.bot_sub]

/-- Below a maximum that is not `+∞` the exponential of the difference is a real number. -/
theorem exp_sub_eq_coe {M s : EReal} (hs : s ≤ M) (hM : M ≠ ⊤) : Ideal.exp (s - M) = (wt M s : EReal) := by
  induction s using EReal.rec with
  | bot => simp [wt, EReal.bot_sub]
  | top => exact absurd (top_le_iff.mp hs) hM
  | coe r =>
    induction M using EReal.rec with
    | bot => exact absurd hs (by simp)
    | top => exact absurd rfl hM
    | coe q => simp [wt, ← EReal.coe_sub]

/-- A real score against a real maximum. -/
theorem wt_coe (q r : ℝ) : wt (q : EReal) (r : EReal) = Real.exp (r - q) := by
  simp [wt, ← EReal.coe_sub]

/-- Raising the maximum from `M'` to `M` rescales every weight exactly. -/
theorem wt_rescale {M' M s : EReal} (hs : s ≤ M') (hMM : M' ≤ M) (hM : M ≠ ⊤) :
    wt M M' * wt M' s = wt M s := by
  induction M' using EReal.rec with
  | bot =>
    have : s = ⊥ := le_bot_iff.mp hs
    subst this; simp
  | top => exact absurd (top_le_iff.mp hMM) hM
  | coe q =>
    induction M using EReal.rec with
    | bot => exact absurd hMM (by simp)
    | top => exact absurd rfl hM
    | coe p =>
      induction s using EReal.rec with
      | bot => simp
      | top => exact absurd hs (by simp)
      | coe r => rw [wt_coe, wt_coe, wt_coe, ← Real.exp_add]; congr 1; ring

/-- One step of the recursion, for the sum (`f = 1`) and for the accumulator (`f = v`): what was held over the entries
    `A` seen so far, rescaled, plus the new tile `B`'s terms, is the same expression over `A ∪ B` at the new maximum. -/
theorem step [DecidableEq ι] (A B : Finset ι) (hAB : Disjoint A B) (s : ι → EReal) (f : ι → ℝ) {M' M : EReal}
    (hA : ∀ k ∈ A, s k ≤ M') (hMM : M' ≤ M) (hM : M ≠ ⊤) :
    wt M M' * (∑ k ∈ A, wt M' (s k) * f k) + ∑ k ∈ B, wt M (s k) * f k = ∑ k ∈ A ∪ B, wt M (s k) * f k := by
  rw [Finset.sum_union hAB, Finset.mul_sum]
  congr 1
  exact Finset.sum_congr rfl fun k hk => by rw [← mul_assoc, wt_rescale (hA k hk) hMM hM]

/-- Where the maximum is attained at a real score, the sum of the weights is at least one. -/
theorem one_le_sum (A : Finset ι) (s : ι → EReal) {q : ℝ} (hk : ∃ k ∈ A, s k = (q : EReal)) :
    1 ≤ ∑ k ∈ A, wt (q : EReal) (s k) := by
  obtain ⟨k, hkA, hkq⟩ := hk
  have h1 : wt (q : EReal) (s k) = 1 := by rw [hkq, wt_coe]; simp
  calc (1 : ℝ) = wt (q : EReal) (s k) := h1.symm
    _ ≤ ∑ k ∈ A, wt (q : EReal) (s k) :=
      Finset.single_le_sum (f := fun k => wt (q : EReal) (s k)) (fun i _ => EReal.toReal_nonneg (by
        unfold Ideal.exp; split <;> simp [Real.exp_nonneg])) hkA

/-- The last step: the accumulator over the sum is the softmax-weighted sum of the values, when the maximum is a real
    score that some entry attains. -/
theorem quotient_eq (A : Finset ι) (s : ι → EReal) (v : ι → ℝ) {q : ℝ} (hle : ∀ k ∈ A, s k ≤ (q : EReal))
    (hk : ∃ k ∈ A, s k = (q : EReal)) :
    Ideal.div ((∑ k ∈ A, wt q (s k) * v k : ℝ) : EReal) ((∑ k ∈ A, wt q (s k) : ℝ) : EReal)
      = ∑ k ∈ A, Ideal.div (Ideal.exp (s k - (q : EReal))) ((∑ k ∈ A, wt q (s k) : ℝ) : EReal) * (v k : EReal) := by
  have hL : (∑ k ∈ A, wt (q : EReal) (s k)) ≠ 0 := ne_of_gt (lt_of_lt_of_le one_pos (one_le_sum A s hk))
  rw [Ideal.div_coe hL, ← EReal.coe_mul, Finset.sum_mul, coe_sum]
  refine Finset.sum_congr rfl fun k hkA => ?_
  rw [Ideal.div_coe hL, exp_sub_eq_coe (hle k hkA) (EReal.coe_ne_top q), ← EReal.coe_mul, ← EReal.coe_mul]
  congr 1; ring

/-! ## One tile, on the extended reals

  With `M' = sup` of the scores seen so far (`-∞` when none) and `M = sup` once the new tile is seen too: the new maximum is
  the old one joined with the tile's; what was held, multiplied by `exp (M' - M)`, plus the tile's terms `exp (s k - M)`, is
  the same expression over everything seen, at the new maximum. No score is `+∞`. -/

section Tile

variable [DecidableEq ι] (s : ι → EReal)

theorem sup_ne_top (hs : ∀ k, s k ≠ ⊤) (A : Finset ι) : A.sup s ≠ ⊤ :=
  ne_of_lt ((Finset.sup_lt_iff (bot_lt_top : (⊥ : EReal) < ⊤)).mpr fun k _ => lt_top_iff_ne_top.mpr (hs k))

/-- The running maximum joined with the tile's is the maximum over everything seen. -/
theorem tile_max (A B : Finset ι) : max (A.sup s) (B.sup s) = (A ∪ B).sup s :=
  (Finset.sup_union (f := s)).symm

/-- The accumulator's step (`f` the values; `f = 1` gives the running sum's). -/
theorem tile_acc (hs : ∀ k, s k ≠ ⊤) (A B : Finset ι) (hAB : Disjoint A B) (f : ι → ℝ) :
    Ideal.exp (A.sup s - (A ∪ B).sup s) * ((∑ k ∈ A, wt (A.sup s) (s k) * f k : ℝ) : EReal)
        + ∑ k ∈ B, Ideal.exp (s k - (A ∪ B).sup s) * (f k : EReal)
      = ((∑ k ∈ A ∪ B, wt ((A ∪ B).sup s) (s k) * f k : ℝ) : EReal) := by
  have hM : (A ∪ B).sup s ≠ ⊤ := sup_ne_top s hs _
  have hMM : A.sup s ≤ (A ∪ B).sup s := Finset.sup_mono Finset.subset_union_left
  have hB : ∀ k ∈ B, Ideal.exp (s k - (A ∪ B).sup s) * (f k : EReal) = ((wt ((A ∪ B).sup s) (s k) * f k : ℝ) : EReal) := fun k hk => by
    rw [exp_sub_eq_coe (Finset.le_sup (f := s) (Finset.mem_union_right _ hk)) hM, ← EReal.coe_mul]
  rw [exp_sub_eq_coe hMM hM, Finset.sum_congr rfl hB, ← coe_sum, ← EReal.coe_mul, ← EReal.coe_add,
    step A B hAB s f (fun k hk => Finset.le_sup (f := s) hk) hMM hM]

/-- The running sum's step. -/
theorem tile_sum (hs : ∀ k, s k ≠ ⊤) (A B : Finset ι) (hAB : Disjoint A B) :
    Ideal.exp (A.sup s - (A ∪ B).sup s) * ((∑ k ∈ A, wt (A.sup s) (s k) : ℝ) : EReal)
        + ∑ k ∈ B, Ideal.exp (s k - (A ∪ B).sup s)
      = ((∑ k ∈ A ∪ B, wt ((A ∪ B).sup s) (s k) : ℝ) : EReal) := by
  have h := tile_acc s hs A B hAB (fun _ => (1 : ℝ))
  simpa only [mul_one, EReal.coe_one] using h

end Tile

/-! ## A whole row

  Over all the entries of a row whose scores are never `+∞` and not all `-∞`: the maximum is a real score that some entry
  attains, and the accumulator over the sum, both taken against it, is the row of the softmax times the values — with the
  softmax's denominator spelt as a reference program computes it, `0 + Σ exp (s - max)`. -/

/-- A maximum folded from `-∞` over a finite set is the set's supremum. -/
theorem fold_max_eq_sup [DecidableEq ι] (A : Finset ι) (f : ι → EReal) : A.fold max (⊥ : EReal) f = A.sup f := by
  induction A using Finset.induction_on with
  | empty => simp
  | insert a A ha ih => rw [Finset.fold_insert ha, Finset.sup_insert, ih]

section Row

variable [Fintype ι] [DecidableEq ι]

theorem row_eq (s : ι → EReal) (v : ι → ℝ) (hs : ∀ k, s k ≠ ⊤) (hex : ∃ k, s k ≠ ⊥) :
    Ideal.div ((∑ k : ι, wt (Finset.univ.sup s) (s k) * v k : ℝ) : EReal) ((∑ k : ι, wt (Finset.univ.sup s) (s k) : ℝ) : EReal)
      = ∑ k : ι, Ideal.div (Ideal.exp (s k - Finset.univ.sup s)) ((0 : EReal) + ∑ k' : ι, Ideal.exp (s k' - Finset.univ.sup s)) * (v k : EReal) := by
  obtain ⟨k₀, hk₀⟩ := hex
  have hne : (Finset.univ : Finset ι).Nonempty := ⟨k₀, Finset.mem_univ _⟩
  obtain ⟨k₁, -, hk₁⟩ := Finset.exists_mem_eq_sup Finset.univ hne s
  have htop : Finset.univ.sup s ≠ ⊤ := sup_ne_top s hs _
  have hbot : Finset.univ.sup s ≠ ⊥ := fun h => hk₀ (le_bot_iff.mp (h ▸ Finset.le_sup (f := s) (Finset.mem_univ k₀)))
  obtain ⟨q, hq⟩ : ∃ q : ℝ, Finset.univ.sup s = (q : EReal) := ⟨(Finset.univ.sup s).toReal, (EReal.coe_toReal htop hbot).symm⟩
  have hle : ∀ k ∈ (Finset.univ : Finset ι), s k ≤ (q : EReal) := fun k hk => hq ▸ Finset.le_sup (f := s) hk
  have hden : ((0 : EReal) + ∑ k' : ι, Ideal.exp (s k' - (q : EReal))) = ((∑ k : ι, wt (q : EReal) (s k) : ℝ) : EReal) := by
    rw [zero_add, coe_sum]
    exact Finset.sum_congr rfl fun k hk => exp_sub_eq_coe (hle k hk) (EReal.coe_ne_top q)
  rw [hq, hden]
  exact quotient_eq Finset.univ s v hle ⟨k₁, Finset.mem_univ _, by rw [← hk₁, hq]⟩

end Row

end Cert.Lib.OnlineSoftmax

end
-- ==== Proof.AttnRow.lean ====
/-
  One row of attention, met tile by tile.

  A query row has a score s k against each of the 4096 keys and, for a fixed output column, a value v k per key. The
  keys come in 8 tiles of 512. A running triple (maximum, sum, accumulator) starts at (−∞, 0, 0); each tile joins its
  scores' maximum to the running one, rescales the sum and the accumulator by the exponential of the old maximum minus
  the new, and adds the tile's exponentials and its exponentials times the values. After n tiles the triple is the
  maximum, the sum of weights and the weighted sum of values over the first 512 n keys, all at that maximum; after all
  8 the accumulator over the sum is the softmax-weighted sum of the values.
-/
import proofs.«173579_j74363063763371_2_alg».proof.Proof.LibOnlineSoftmax

noncomputable section

open scoped BigOperators

namespace Cert.Attn

open Idealize.ShloMosaic Cert.Lib.OnlineSoftmax

/-- Key number j of tile n. -/
def tileEmb (n : Fin 8) : Fin 512 ↪ Fin 4096 :=
  ⟨fun j => ⟨512 * n.val + j.val, by have := n.isLt; have := j.isLt; omega⟩,
   fun a b h => Fin.ext (by have := congrArg Fin.val h; simp only at this; omega)⟩

@[simp] theorem tileEmb_val (n : Fin 8) (j : Fin 512) : (tileEmb n j).val = 512 * n.val + j.val := rfl

/-- The keys of tile n. -/
def tileSet (n : Fin 8) : Finset (Fin 4096) := Finset.univ.map (tileEmb n)

/-- The keys of the first n tiles. -/
def seen (n : ℕ) : Finset (Fin 4096) := Finset.univ.filter fun k => k.val < 512 * n

theorem mem_tileSet (n : Fin 8) (k : Fin 4096) : k ∈ tileSet n ↔ 512 * n.val ≤ k.val ∧ k.val < 512 * n.val + 512 := by
  unfold tileSet
  rw [Finset.mem_map]
  constructor
  · rintro ⟨j, -, rfl⟩
    have := j.isLt
    simp only [tileEmb_val]; omega
  · rintro ⟨h1, h2⟩
    exact ⟨⟨k.val - 512 * n.val, by omega⟩, Finset.mem_univ _, Fin.ext (by simp only [tileEmb_val]; omega)⟩

theorem mem_seen (n : ℕ) (k : Fin 4096) : k ∈ seen n ↔ k.val < 512 * n := by
  unfold seen; simp

theorem seen_zero : seen 0 = ∅ := by
  ext k; rw [mem_seen]; simp

theorem seen_succ (n : Fin 8) : seen (n.val + 1) = seen n.val ∪ tileSet n := by
  ext k
  rw [Finset.mem_union, mem_seen, mem_seen, mem_tileSet]
  omega

theorem seen_disjoint (n : Fin 8) : Disjoint (seen n.val) (tileSet n) := by
  rw [Finset.disjoint_left]
  intro k hk hk'
  rw [mem_seen] at hk
  rw [mem_tileSet] at hk'
  omega

theorem seen_all : seen 8 = Finset.univ := by
  ext k
  rw [mem_seen]
  exact ⟨fun _ => Finset.mem_univ _, fun _ => by have := k.isLt; omega⟩

/-- A tile's sum over its 512 positions is the sum over its keys. -/
theorem sum_tile {M : Type*} [AddCommMonoid M] (n : Fin 8) (g : Fin 4096 → M) :
    ∑ j : Fin 512, g (tileEmb n j) = ∑ k ∈ tileSet n, g k := by
  unfold tileSet; rw [Finset.sum_map]

/-- A tile's maximum folded from −∞ over its 512 positions is the supremum over its keys. -/
theorem max_tile (n : Fin 8) (s : Fin 4096 → EReal) :
    (Finset.univ : Finset (Fin 512)).fold max (⊥ : EReal) (fun j => s (tileEmb n j)) = (tileSet n).sup s := by
  rw [fold_max_eq_sup]; unfold tileSet; rw [Finset.sup_map]; rfl

/-- One tile's step on the running triple. -/
def rowStep (s v : Fin 4096 → EReal) (n : Fin 8) (st : EReal × EReal × EReal) : EReal × EReal × EReal :=
  (max st.1 ((Finset.univ : Finset (Fin 512)).fold max (⊥ : EReal) (fun j => s (tileEmb n j))),
   Ideal.exp (st.1 - max st.1 ((Finset.univ : Finset (Fin 512)).fold max (⊥ : EReal) (fun j => s (tileEmb n j)))) * st.2.1
     + ∑ j : Fin 512, Ideal.exp (s (tileEmb n j) - max st.1 ((Finset.univ : Finset (Fin 512)).fold max (⊥ : EReal) (fun j => s (tileEmb n j)))),
   Ideal.exp (st.1 - max st.1 ((Finset.univ : Finset (Fin 512)).fold max (⊥ : EReal) (fun j => s (tileEmb n j)))) * st.2.2
     + ∑ j : Fin 512, Ideal.exp (s (tileEmb n j) - max st.1 ((Finset.univ : Finset (Fin 512)).fold max (⊥ : EReal) (fun j => s (tileEmb n j)))) * v (tileEmb n j))

/-- The running triple after the first n tiles. -/
def rowState (s v : Fin 4096 → EReal) : ℕ → EReal × EReal × EReal
  | 0 => (⊥, 0, 0)
  | n + 1 => if h : n < 8 then rowStep s v ⟨n, h⟩ (rowState s v n) else rowState s v n

theorem rowState_succ (s v : Fin 4096 → EReal) (n : ℕ) (h : n < 8) :
    rowState s v (n + 1) = rowStep s v ⟨n, h⟩ (rowState s v n) := by
  rw [rowState, dif_pos h]

/-- After n tiles the triple is the maximum, the sum of the weights and the weighted sum of the values over the keys
    seen, at that maximum. No score is +∞; the values are real. -/
theorem rowState_eq (s : Fin 4096 → EReal) (vr : Fin 4096 → ℝ) (hs : ∀ k, s k ≠ ⊤) (n : ℕ) (hn : n ≤ 8) :
    rowState s (fun k => (vr k : EReal)) n
      = ((seen n).sup s, ((∑ k ∈ seen n, wt ((seen n).sup s) (s k) : ℝ) : EReal),
          ((∑ k ∈ seen n, wt ((seen n).sup s) (s k) * vr k : ℝ) : EReal)) := by
  induction n with
  | zero =>
    rw [rowState, seen_zero]; simp
  | succ n ih =>
    have h : n < 8 := hn
    rw [rowState_succ s _ n h, ih (Nat.le_of_lt h)]
    have e : seen (n + 1) = seen n ∪ tileSet ⟨n, h⟩ := seen_succ ⟨n, h⟩
    have hd : Disjoint (seen n) (tileSet ⟨n, h⟩) := seen_disjoint ⟨n, h⟩
    unfold rowStep
    simp only []
    rw [max_tile, tile_max, sum_tile ⟨n, h⟩ (fun k => Ideal.exp (s k - (seen n ∪ tileSet ⟨n, h⟩).sup s)),
      sum_tile ⟨n, h⟩ (fun k => Ideal.exp (s k - (seen n ∪ tileSet ⟨n, h⟩).sup s) * (vr k : EReal)),
      tile_sum s hs _ _ hd, tile_acc s hs _ _ hd vr, e]

/-- After all 8 tiles the accumulator over the sum is the softmax-weighted sum of the values, the softmax spelt with
    the row's maximum subtracted and its denominator as 0 plus the sum of the exponentials. -/
theorem row_out (s : Fin 4096 → EReal) (vr : Fin 4096 → ℝ) (hs : ∀ k, s k ≠ ⊤) (hex : ∃ k, s k ≠ ⊥) :
    Ideal.div (rowState s (fun k => (vr k : EReal)) 8).2.2 (rowState s (fun k => (vr k : EReal)) 8).2.1
      = ∑ k : Fin 4096, Ideal.div (Ideal.exp (s k - Finset.univ.sup s))
          ((0 : EReal) + ∑ k' : Fin 4096, Ideal.exp (s k' - Finset.univ.sup s)) * (vr k : EReal) := by
  rw [rowState_eq s vr hs 8 (le_refl 8), seen_all]
  exact row_eq s vr hs hex

end Cert.Attn

end
-- ==== Proof.LibBatchDot.lean ====
/-
  Batched products of arrays, read at an index.

  Three contractions of one axis, each over arrays whose first axis (where there is one on both sides) is a batch
  axis carried through: rows against rows within a batch item (`[B, M, D] · [B, N, D] → [B, M, N]`, entry
  `(b, i, j)` the inner product of row `i` of the left item `b` with row `j` of the right item `b`); a matrix
  against rows within a batch item (`[B, M, N] · [B, N, D] → [B, M, D]`, entry `(b, i, d)` the sum over `j` of
  `l (b, i, j) * r (b, j, d)`); and every row of every batch item against the rows of one weight matrix
  (`[B, M, D] · [K, D] → [B, M, K]`, entry `(b, n, k)` the inner product of row `(b, n)` with weight row `k`).
  For each, the dimension numbers as a record over any extents, the operand coordinates the record reads at a
  result index and a contraction position, and the contraction's sum re-indexed over the plain range of the
  contracted axis.
-/
import Idealize.ShloMosaic.Lib.ValueIdx
import Idealize.ShloMosaic.PureOps.Ideal.Laws

noncomputable section

open scoped BigOperators

namespace Idealize.ShloMosaic.BatchDot

open Idealize.ShloMosaic Idealize.ShloMosaic.ValueIdx

/-! ## Rows against rows within a batch item -/

/-- The dimension numbers of `[B, M, D] · [B, N, D] → [B, M, N]`: the first axes a batch axis, the last axes contracted. -/
abbrev pairDims (B M N D : ℕ)
    (wf : DotDims.WF ⟨3, ![B, M, D]⟩ ⟨3, ![B, N, D]⟩ ⟨3, ![B, M, N]⟩ [2] [2] [1] [1] [0] [0]) :
    DotDims ⟨3, ![B, M, D]⟩ ⟨3, ![B, N, D]⟩ ⟨3, ![B, M, N]⟩ where
  lhsContracting := [2]
  rhsContracting := [2]
  lhsNonContracting := [1]
  rhsNonContracting := [1]
  lhsBatch := [0]
  rhsBatch := [0]
  wf := wf

section
variable {B M N D : ℕ} (wf : DotDims.WF ⟨3, ![B, M, D]⟩ ⟨3, ![B, N, D]⟩ ⟨3, ![B, M, N]⟩ [2] [2] [1] [1] [0] [0])

/-- The left operand's batch item is the result's. -/
theorem pair_lhs0 (j : (⟨3, ![B, M, N]⟩ : Shape).Idx) (c : (pairDims B M N D wf).contr.Idx) :
    ((pairDims B M N D wf).lhsIdx j c (0 : Fin 3)).val = (j 0).val := by
  unfold DotDims.lhsIdx
  rw [dif_pos (show (0 : Fin 3) ∈ (pairDims B M N D wf).lhsBatch from List.mem_singleton.mpr rfl)]
  rfl

/-- The left operand's row is the result's second coordinate. -/
theorem pair_lhs1 (j : (⟨3, ![B, M, N]⟩ : Shape).Idx) (c : (pairDims B M N D wf).contr.Idx) :
    ((pairDims B M N D wf).lhsIdx j c (1 : Fin 3)).val = (j 1).val := by
  unfold DotDims.lhsIdx
  rw [dif_neg (show ¬ (1 : Fin 3) ∈ (pairDims B M N D wf).lhsBatch from (by decide : ¬ (1 : Fin 3) ∈ ([0] : List (Fin 3)))),
    dif_pos (show (1 : Fin 3) ∈ (pairDims B M N D wf).lhsNonContracting from List.mem_singleton.mpr rfl)]
  rfl

/-- The left operand's last coordinate is the contraction position. -/
theorem pair_lhs2 (j : (⟨3, ![B, M, N]⟩ : Shape).Idx) (c : (pairDims B M N D wf).contr.Idx) :
    ((pairDims B M N D wf).lhsIdx j c (2 : Fin 3)).val = (c ⟨0, Nat.one_pos⟩).val :=
  (pairDims B M N D wf).lhsIdx_val_of_single rfl j c

/-- The right operand's batch item is the result's. -/
theorem pair_rhs0 (j : (⟨3, ![B, M, N]⟩ : Shape).Idx) (c : (pairDims B M N D wf).contr.Idx) :
    ((pairDims B M N D wf).rhsIdx j c (0 : Fin 3)).val = (j 0).val := by
  unfold DotDims.rhsIdx
  rw [dif_pos (show (0 : Fin 3) ∈ (pairDims B M N D wf).rhsBatch from List.mem_singleton.mpr rfl)]
  rfl

/-- The right operand's row is the result's third coordinate. -/
theorem pair_rhs1 (j : (⟨3, ![B, M, N]⟩ : Shape).Idx) (c : (pairDims B M N D wf).contr.Idx) :
    ((pairDims B M N D wf).rhsIdx j c (1 : Fin 3)).val = (j 2).val := by
  unfold DotDims.rhsIdx
  rw [dif_neg (show ¬ (1 : Fin 3) ∈ (pairDims B M N D wf).rhsBatch from (by decide : ¬ (1 : Fin 3) ∈ ([0] : List (Fin 3)))),
    dif_pos (show (1 : Fin 3) ∈ (pairDims B M N D wf).rhsNonContracting from List.mem_singleton.mpr rfl)]
  rfl

/-- The right operand's last coordinate is the contraction position. -/
theorem pair_rhs2 (j : (⟨3, ![B, M, N]⟩ : Shape).Idx) (c : (pairDims B M N D wf).contr.Idx) :
    ((pairDims B M N D wf).rhsIdx j c (2 : Fin 3)).val = (c ⟨0, Nat.one_pos⟩).val :=
  (pairDims B M N D wf).rhsIdx_val_of_single rfl j c

/-- The contraction at `(b, i, j)` is the inner product of row `(b, i)` of the left with row `(b, j)` of the right. -/
theorem pair_sum (l : (⟨3, ![B, M, D]⟩ : Shape).Idx → EReal) (r : (⟨3, ![B, N, D]⟩ : Shape).Idx → EReal)
    (b : Fin B) (i : Fin M) (j : Fin N) :
    ∑ k : (pairDims B M N D wf).contr.Idx,
        l ((pairDims B M N D wf).lhsIdx (ix3 b i j) k) * r ((pairDims B M N D wf).rhsIdx (ix3 b i j) k)
      = ∑ e : Fin D, l (ix3 b i e) * r (ix3 b j e) := by
  rw [← Equiv.sum_comp (contrEquiv1 (pairDims B M N D wf) D rfl rfl).symm]
  refine Finset.sum_congr rfl fun e _ => ?_
  have he := contrEquiv1_symm_val (pairDims B M N D wf) D rfl rfl e
  have el : (pairDims B M N D wf).lhsIdx (ix3 b i j) ((contrEquiv1 (pairDims B M N D wf) D rfl rfl).symm e) = ix3 b i e :=
    funext fun a => Fin.ext (by
      match a with
      | ⟨0, _⟩ => exact pair_lhs0 wf _ _
      | ⟨1, _⟩ => exact pair_lhs1 wf _ _
      | ⟨2, _⟩ => exact (pair_lhs2 wf _ _).trans he)
  have er : (pairDims B M N D wf).rhsIdx (ix3 b i j) ((contrEquiv1 (pairDims B M N D wf) D rfl rfl).symm e) = ix3 b j e :=
    funext fun a => Fin.ext (by
      match a with
      | ⟨0, _⟩ => exact pair_rhs0 wf _ _
      | ⟨1, _⟩ => exact pair_rhs1 wf _ _
      | ⟨2, _⟩ => exact (pair_rhs2 wf _ _).trans he)
  rw [el, er]

end

/-! ## A matrix against rows within a batch item -/

/-- The dimension numbers of `[B, M, N] · [B, N, D] → [B, M, D]`: the first axes a batch axis, the left's last axis
    contracted with the right's middle one. -/
abbrev mixDims (B M N D : ℕ)
    (wf : DotDims.WF ⟨3, ![B, M, N]⟩ ⟨3, ![B, N, D]⟩ ⟨3, ![B, M, D]⟩ [2] [1] [1] [2] [0] [0]) :
    DotDims ⟨3, ![B, M, N]⟩ ⟨3, ![B, N, D]⟩ ⟨3, ![B, M, D]⟩ where
  lhsContracting := [2]
  rhsContracting := [1]
  lhsNonContracting := [1]
  rhsNonContracting := [2]
  lhsBatch := [0]
  rhsBatch := [0]
  wf := wf

section
variable {B M N D : ℕ} (wf : DotDims.WF ⟨3, ![B, M, N]⟩ ⟨3, ![B, N, D]⟩ ⟨3, ![B, M, D]⟩ [2] [1] [1] [2] [0] [0])

/-- The left operand's batch item is the result's. -/
theorem mix_lhs0 (j : (⟨3, ![B, M, D]⟩ : Shape).Idx) (c : (mixDims B M N D wf).contr.Idx) :
    ((mixDims B M N D wf).lhsIdx j c (0 : Fin 3)).val = (j 0).val := by
  unfold DotDims.lhsIdx
  rw [dif_pos (show (0 : Fin 3) ∈ (mixDims B M N D wf).lhsBatch from List.mem_singleton.mpr rfl)]
  rfl

/-- The left operand's row is the result's second coordinate. -/
theorem mix_lhs1 (j : (⟨3, ![B, M, D]⟩ : Shape).Idx) (c : (mixDims B M N D wf).contr.Idx) :
    ((mixDims B M N D wf).lhsIdx j c (1 : Fin 3)).val = (j 1).val := by
  unfold DotDims.lhsIdx
  rw [dif_neg (show ¬ (1 : Fin 3) ∈ (mixDims B M N D wf).lhsBatch from (by decide : ¬ (1 : Fin 3) ∈ ([0] : List (Fin 3)))),
    dif_pos (show (1 : Fin 3) ∈ (mixDims B M N D wf).lhsNonContracting from List.mem_singleton.mpr rfl)]
  rfl

/-- The left operand's last coordinate is the contraction position. -/
theorem mix_lhs2 (j : (⟨3, ![B, M, D]⟩ : Shape).Idx) (c : (mixDims B M N D wf).contr.Idx) :
    ((mixDims B M N D wf).lhsIdx j c (2 : Fin 3)).val = (c ⟨0, Nat.one_pos⟩).val :=
  (mixDims B M N D wf).lhsIdx_val_of_single rfl j c

/-- The right operand's batch item is the result's. -/
theorem mix_rhs0 (j : (⟨3, ![B, M, D]⟩ : Shape).Idx) (c : (mixDims B M N D wf).contr.Idx) :
    ((mixDims B M N D wf).rhsIdx j c (0 : Fin 3)).val = (j 0).val := by
  unfold DotDims.rhsIdx
  rw [dif_pos (show (0 : Fin 3) ∈ (mixDims B M N D wf).rhsBatch from List.mem_singleton.mpr rfl)]
  rfl

/-- The right operand's middle coordinate is the contraction position. -/
theorem mix_rhs1 (j : (⟨3, ![B, M, D]⟩ : Shape).Idx) (c : (mixDims B M N D wf).contr.Idx) :
    ((mixDims B M N D wf).rhsIdx j c (1 : Fin 3)).val = (c ⟨0, Nat.one_pos⟩).val :=
  (mixDims B M N D wf).rhsIdx_val_of_single rfl j c

/-- The right operand's last coordinate is the result's third coordinate. -/
theorem mix_rhs2 (j : (⟨3, ![B, M, D]⟩ : Shape).Idx) (c : (mixDims B M N D wf).contr.Idx) :
    ((mixDims B M N D wf).rhsIdx j c (2 : Fin 3)).val = (j 2).val := by
  unfold DotDims.rhsIdx
  rw [dif_neg (show ¬ (2 : Fin 3) ∈ (mixDims B M N D wf).rhsBatch from (by decide : ¬ (2 : Fin 3) ∈ ([0] : List (Fin 3)))),
    dif_pos (show (2 : Fin 3) ∈ (mixDims B M N D wf).rhsNonContracting from List.mem_singleton.mpr rfl)]
  rfl

/-- The contraction at `(b, i, d)` is the sum over `j` of `l (b, i, j) * r (b, j, d)`. -/
theorem mix_sum (l : (⟨3, ![B, M, N]⟩ : Shape).Idx → EReal) (r : (⟨3, ![B, N, D]⟩ : Shape).Idx → EReal)
    (b : Fin B) (i : Fin M) (d : Fin D) :
    ∑ k : (mixDims B M N D wf).contr.Idx,
        l ((mixDims B M N D wf).lhsIdx (ix3 b i d) k) * r ((mixDims B M N D wf).rhsIdx (ix3 b i d) k)
      = ∑ j : Fin N, l (ix3 b i j) * r (ix3 b j d) := by
  rw [← Equiv.sum_comp (contrEquiv1 (mixDims B M N D wf) N rfl rfl).symm]
  refine Finset.sum_congr rfl fun e _ => ?_
  have he := contrEquiv1_symm_val (mixDims B M N D wf) N rfl rfl e
  have el : (mixDims B M N D wf).lhsIdx (ix3 b i d) ((contrEquiv1 (mixDims B M N D wf) N rfl rfl).symm e) = ix3 b i e :=
    funext fun a => Fin.ext (by
      match a with
      | ⟨0, _⟩ => exact mix_lhs0 wf _ _
      | ⟨1, _⟩ => exact mix_lhs1 wf _ _
      | ⟨2, _⟩ => exact (mix_lhs2 wf _ _).trans he)
  have er : (mixDims B M N D wf).rhsIdx (ix3 b i d) ((contrEquiv1 (mixDims B M N D wf) N rfl rfl).symm e) = ix3 b e d :=
    funext fun a => Fin.ext (by
      match a with
      | ⟨0, _⟩ => exact mix_rhs0 wf _ _
      | ⟨1, _⟩ => exact (mix_rhs1 wf _ _).trans he
      | ⟨2, _⟩ => exact mix_rhs2 wf _ _)
  rw [el, er]

end

/-! ## Every row against the rows of one weight matrix -/

/-- The dimension numbers of `[B, M, D] · [K, D] → [B, M, K]`: no batch axis, the last axes contracted. -/
abbrev rowsDims (B M D K : ℕ)
    (wf : DotDims.WF ⟨3, ![B, M, D]⟩ ⟨2, ![K, D]⟩ ⟨3, ![B, M, K]⟩ [2] [1] [0, 1] [0] [] []) :
    DotDims ⟨3, ![B, M, D]⟩ ⟨2, ![K, D]⟩ ⟨3, ![B, M, K]⟩ where
  lhsContracting := [2]
  rhsContracting := [1]
  lhsNonContracting := [0, 1]
  rhsNonContracting := [0]
  lhsBatch := []
  rhsBatch := []
  wf := wf

section
variable {B M D K : ℕ} (wf : DotDims.WF ⟨3, ![B, M, D]⟩ ⟨2, ![K, D]⟩ ⟨3, ![B, M, K]⟩ [2] [1] [0, 1] [0] [] [])

/-- The left operand's first coordinate is the result's. -/
theorem rows_lhs0 (j : (⟨3, ![B, M, K]⟩ : Shape).Idx) (c : (rowsDims B M D K wf).contr.Idx) :
    ((rowsDims B M D K wf).lhsIdx j c (0 : Fin 3)).val = (j 0).val := by
  unfold DotDims.lhsIdx
  rw [dif_neg (show ¬ (0 : Fin 3) ∈ (rowsDims B M D K wf).lhsBatch from List.not_mem_nil),
    dif_pos (show (0 : Fin 3) ∈ (rowsDims B M D K wf).lhsNonContracting from (by decide : (0 : Fin 3) ∈ ([0, 1] : List (Fin 3))))]
  rfl

/-- The left operand's second coordinate is the result's. -/
theorem rows_lhs1 (j : (⟨3, ![B, M, K]⟩ : Shape).Idx) (c : (rowsDims B M D K wf).contr.Idx) :
    ((rowsDims B M D K wf).lhsIdx j c (1 : Fin 3)).val = (j 1).val := by
  unfold DotDims.lhsIdx
  rw [dif_neg (show ¬ (1 : Fin 3) ∈ (rowsDims B M D K wf).lhsBatch from List.not_mem_nil),
    dif_pos (show (1 : Fin 3) ∈ (rowsDims B M D K wf).lhsNonContracting from (by decide : (1 : Fin 3) ∈ ([0, 1] : List (Fin 3))))]
  rfl

/-- The left operand's last coordinate is the contraction position. -/
theorem rows_lhs2 (j : (⟨3, ![B, M, K]⟩ : Shape).Idx) (c : (rowsDims B M D K wf).contr.Idx) :
    ((rowsDims B M D K wf).lhsIdx j c (2 : Fin 3)).val = (c ⟨0, Nat.one_pos⟩).val :=
  (rowsDims B M D K wf).lhsIdx_val_of_single rfl j c

/-- The weight matrix's row is the result's third coordinate. -/
theorem rows_rhs0 (j : (⟨3, ![B, M, K]⟩ : Shape).Idx) (c : (rowsDims B M D K wf).contr.Idx) :
    ((rowsDims B M D K wf).rhsIdx j c (0 : Fin 2)).val = (j 2).val := by
  unfold DotDims.rhsIdx
  rw [dif_neg (show ¬ (0 : Fin 2) ∈ (rowsDims B M D K wf).rhsBatch from List.not_mem_nil),
    dif_pos (show (0 : Fin 2) ∈ (rowsDims B M D K wf).rhsNonContracting from List.mem_singleton.mpr rfl)]
  rfl

/-- The weight matrix's column is the contraction position. -/
theorem rows_rhs1 (j : (⟨3, ![B, M, K]⟩ : Shape).Idx) (c : (rowsDims B M D K wf).contr.Idx) :
    ((rowsDims B M D K wf).rhsIdx j c (1 : Fin 2)).val = (c ⟨0, Nat.one_pos⟩).val :=
  (rowsDims B M D K wf).rhsIdx_val_of_single rfl j c

/-- The contraction at `(b, n, k)` is the inner product of row `(b, n)` with weight row `k`. -/
theorem rows_sum (l : (⟨3, ![B, M, D]⟩ : Shape).Idx → EReal) (r : (⟨2, ![K, D]⟩ : Shape).Idx → EReal)
    (b : Fin B) (n : Fin M) (k : Fin K) :
    ∑ c : (rowsDims B M D K wf).contr.Idx,
        l ((rowsDims B M D K wf).lhsIdx (ix3 b n k) c) * r ((rowsDims B M D K wf).rhsIdx (ix3 b n k) c)
      = ∑ d : Fin D, l (ix3 b n d) * r (ix2 k d) := by
  rw [← Equiv.sum_comp (contrEquiv1 (rowsDims B M D K wf) D rfl rfl).symm]
  refine Finset.sum_congr rfl fun e _ => ?_
  have he := contrEquiv1_symm_val (rowsDims B M D K wf) D rfl rfl e
  have el : (rowsDims B M D K wf).lhsIdx (ix3 b n k) ((contrEquiv1 (rowsDims B M D K wf) D rfl rfl).symm e) = ix3 b n e :=
    funext fun a => Fin.ext (by
      match a with
      | ⟨0, _⟩ => exact rows_lhs0 wf _ _
      | ⟨1, _⟩ => exact rows_lhs1 wf _ _
      | ⟨2, _⟩ => exact (rows_lhs2 wf _ _).trans he)
  have er : (rowsDims B M D K wf).rhsIdx (ix3 b n k) ((contrEquiv1 (rowsDims B M D K wf) D rfl rfl).symm e) = ix2 k e :=
    funext fun a => Fin.ext (by
      match a with
      | ⟨0, _⟩ => exact rows_rhs0 wf _ _
      | ⟨1, _⟩ => exact (rows_rhs1 wf _ _).trans he)
  rw [el, er]

end

end Idealize.ShloMosaic.BatchDot

end
-- ==== Proof.LibSoftmaxLast.lean ====
/-
  A stable softmax along the last axis of a rank-3 array, step by step, read at an index.

  Over an array of extents [B, M, N] every step acts within one row (b, i, ·): the row's maximum and the row's sum
  are reductions over the last axis; the reduced [B, M] array, kept with a unit last axis and repeated along it,
  gives every entry of row (b, i) that row's number. A kernel spells the reductions as lane reductions and the
  repetition as a shape cast followed by a broadcast; a host program spells them as its reduce and two
  broadcasts in dimensions. Each lemma reads one such step at an index built from its coordinates.
-/
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Idealize.ShloMosaic.SoftmaxLast

open Idealize.ShloMosaic Idealize.ShloMosaic.ValueIdx

variable {B M N : ℕ}

/-- The index over (b, i) with coordinate k put back on the reduced last axis is (b, i, k). -/
theorem lift_last (h : (⟨3, ![B, M, N]⟩ : Shape).Reduces [2] (⟨2, ![B, M]⟩ : Shape)) (b : Fin B) (i : Fin M)
    (k : Fin ((⟨3, ![B, M, N]⟩ : Shape).size 2)) :
    h.lift (ix2 b i) k = ix3 b i (⟨k.val, k.isLt⟩ : Fin N) := by
  funext c; apply Fin.ext
  fin_cases c <;> rfl

/-! ## The reductions over the last axis -/

/-- A lane maximum over the last axis, at (b, i): the fold of the maximum over row (b, i) from the accumulator's value. -/
theorem laneMax_apply {φ : FTy} (s : FVec Ideal ⟨3, ![B, M, N]⟩ φ) (acc : BitVec φ.bits)
    (h : (⟨3, ![B, M, N]⟩ : Shape).Reduces [2] (⟨2, ![B, M]⟩ : Shape)) (hφ : FKind.Formats φ)
    (hacc : acc = FKind.maximumf.neutral φ hφ) (b : Fin B) (i : Fin M) :
    multiReduction .maximumf [2] ⟨2, ![B, M]⟩ s acc h hφ hacc (ix2 b i)
      = (Finset.univ : Finset (Fin N)).fold max (Ideal.ofBits φ acc) (fun k => s (ix3 b i k)) := by
  refine (Ideal.multiReduction_maximumf_single s acc h hφ hacc (ix2 b i)).trans ?_
  exact congrArg (fun f => Finset.fold max (Ideal.ofBits φ acc) f (Finset.univ : Finset (Fin N)))
    (funext fun k => congrArg s (lift_last h b i k))

/-- A lane sum over the last axis, at (b, i): the sum of row (b, i). -/
theorem laneSum_apply {φ : FTy} (e : FVec Ideal ⟨3, ![B, M, N]⟩ φ) (acc : BitVec φ.bits)
    (h : (⟨3, ![B, M, N]⟩ : Shape).Reduces [2] (⟨2, ![B, M]⟩ : Shape)) (hφ : FKind.Formats φ)
    (hacc : acc = FKind.add.neutral φ hφ) (b : Fin B) (i : Fin M) :
    multiReduction .add [2] ⟨2, ![B, M]⟩ e acc h hφ hacc (ix2 b i) = ∑ k : Fin N, e (ix3 b i k) := by
  refine (Ideal.multiReduction_add_single e acc h hφ hacc (ix2 b i)).trans ?_
  exact Finset.sum_congr rfl fun k _ => congrArg e (lift_last h b i k)

/-- The host's reduce by the maximum over the last axis, at (b, i): the fold of the maximum over row (b, i) from
    the initial value. -/
theorem hostMax_apply {φ : FTy} {u : Shape} (s : FVec Ideal ⟨3, ![B, M, N]⟩ φ) (init : u.Idx → Ideal φ)
    (h' : (⟨3, ![B, M, N]⟩ : Shape).ReducesTo [2] (⟨2, ![B, M]⟩ : Shape))
    (h : (⟨3, ![B, M, N]⟩ : Shape).Reduces [2] (⟨2, ![B, M]⟩ : Shape)) (hu : 0 < u.numel) (b : Fin B) (i : Fin M) :
    Host.reduce FloatOps.maximumf s init h' hu (ix2 b i)
      = (Finset.univ : Finset (Fin N)).fold max (init (Shape.Idx.first hu)) (fun k => s (ix3 b i k)) := by
  refine (Host.reduce_eq_fold_single FloatOps.maximumf s init h' h hu (ix2 b i)).trans ?_
  exact congrArg (fun f => Finset.fold max (init (Shape.Idx.first hu)) f (Finset.univ : Finset (Fin N)))
    (funext fun k => congrArg s (lift_last h b i k))

/-- The host's reduce by addition over the last axis, at (b, i): the initial value plus the sum of row (b, i). -/
theorem hostSum_apply {φ : FTy} {u : Shape} (e : FVec Ideal ⟨3, ![B, M, N]⟩ φ) (init : u.Idx → Ideal φ)
    (h' : (⟨3, ![B, M, N]⟩ : Shape).ReducesTo [2] (⟨2, ![B, M]⟩ : Shape))
    (h : (⟨3, ![B, M, N]⟩ : Shape).Reduces [2] (⟨2, ![B, M]⟩ : Shape)) (hu : 0 < u.numel) (b : Fin B) (i : Fin M) :
    Host.reduceAdd e init h' hu (ix2 b i) = init (Shape.Idx.first hu) + ∑ k : Fin N, e (ix3 b i k) := by
  refine (hostReduceAdd_apply e init h' hu (ix2 b i)).trans ?_
  refine (Ideal.hostReduceAdd_single h' h e _ (ix2 b i)).trans ?_
  exact congrArg (fun t => init (Shape.Idx.first hu) + t)
    (Finset.sum_congr rfl fun k _ => congrArg e (lift_last h b i k))

/-! ## A per-row number repeated along the row -/

variable {α : Type}

/-- A [B, M] array cast to [B, M, 1] reads, at (b, i, u), the operand at (b, i): the same row-major position. -/
theorem shapeCast_keep_apply (v : (⟨2, ![B, M]⟩ : Shape).Idx → α)
    (h : (⟨2, ![B, M]⟩ : Shape).ShapeCasts ⟨3, ![B, M, 1]⟩) (b : Fin B) (i : Fin M) (u : Fin 1) :
    shapeCast ⟨3, ![B, M, 1]⟩ v h (ix3 b i u) = v (ix2 b i) :=
  shapeCast_apply v h _ _ (by
    have hu : u.val = 0 := by omega
    rw [Shape.rowMajor_val_three, Shape.rowMajor_val_two]
    show b.val * M + i.val = (b.val * M + i.val) * 1 + u.val
    rw [hu, Nat.mul_one, Nat.add_zero])

/-- A [B, M, 1] array broadcast to [B, M, N] reads, at (b, i, j), the operand at (b, i, 0). -/
theorem broadcastTo_last_apply (v : (⟨3, ![B, M, 1]⟩ : Shape).Idx → α)
    (h : (⟨3, ![B, M, 1]⟩ : Shape).Broadcasts ⟨3, ![B, M, N]⟩) (b : Fin B) (i : Fin M) (j : Fin N) :
    broadcastTo ⟨3, ![B, M, N]⟩ v h (ix3 b i j) = v (ix3 b i (0 : Fin 1)) := by
  refine broadcastTo_apply v h (ix3 b i j) (ix3 b i (0 : Fin 1)) fun ax => ?_
  match ax with
  | ⟨0, _⟩ =>
    show b.val = if B = 1 then 0 else b.val
    split
    · have := b.isLt; omega
    · rfl
  | ⟨1, _⟩ =>
    show i.val = if M = 1 then 0 else i.val
    split
    · have := i.isLt; omega
    · rfl
  | ⟨2, _⟩ => rfl

/-- A [B, M] array broadcast in dimensions [0, 1] to [B, M, 1] reads, at (b, i, u), the operand at (b, i). -/
theorem broadcastInDim_keep_apply (v : (⟨2, ![B, M]⟩ : Shape).Idx → α)
    (h : (⟨2, ![B, M]⟩ : Shape).BroadcastsInDim ⟨3, ![B, M, 1]⟩ ![0, 1]) (b : Fin B) (i : Fin M) (u : Fin 1) :
    broadcastInDim ⟨3, ![B, M, 1]⟩ ![0, 1] h v (ix3 b i u) = v (ix2 b i) := by
  refine broadcastInDim_apply ![0, 1] h v (ix3 b i u) (ix2 b i) fun ax => ?_
  match ax with
  | ⟨0, _⟩ =>
    show b.val = if B = 1 then 0 else b.val
    split
    · have := b.isLt; omega
    · rfl
  | ⟨1, _⟩ =>
    show i.val = if M = 1 then 0 else i.val
    split
    · have := i.isLt; omega
    · rfl

/-- A [B, M, 1] array broadcast in dimensions [0, 1, 2] to [B, M, N] reads, at (b, i, j), the operand at (b, i, 0). -/
theorem broadcastInDim_last_apply (v : (⟨3, ![B, M, 1]⟩ : Shape).Idx → α)
    (h : (⟨3, ![B, M, 1]⟩ : Shape).BroadcastsInDim ⟨3, ![B, M, N]⟩ ![0, 1, 2]) (b : Fin B) (i : Fin M) (j : Fin N) :
    broadcastInDim ⟨3, ![B, M, N]⟩ ![0, 1, 2] h v (ix3 b i j) = v (ix3 b i (0 : Fin 1)) := by
  refine broadcastInDim_apply ![0, 1, 2] h v (ix3 b i j) (ix3 b i (0 : Fin 1)) fun ax => ?_
  match ax with
  | ⟨0, _⟩ =>
    show b.val = if B = 1 then 0 else b.val
    split
    · have := b.isLt; omega
    · rfl
  | ⟨1, _⟩ =>
    show i.val = if M = 1 then 0 else i.val
    split
    · have := i.isLt; omega
    · rfl
  | ⟨2, _⟩ => rfl

end Idealize.ShloMosaic.SoftmaxLast

end
-- ==== Proof.StepAt.lean ====
/-
  The loop's step read at an entry, on the extended reals.

  Fix a batch item b, a query row r of the block and an output column d. At (b, r) the scaled query row has a score
  against each row j of a key tile: the sum over the 64 features of the products. One step joins the running maximum
  with the tile's largest score, rescales the running sum and the accumulator's entry (b, r, d) by the exponential of
  the old maximum minus the new, and adds the tile's exponentials of score minus new maximum — for the accumulator,
  each times the value tile's entry (b, j, d). Read along the whole loop, the three entries follow the running triple
  of one attention row over the 8 tiles of the resident key and value arrays.
-/
import proofs.«173579_j74363063763371_2_alg».proof.Proof.LoopValue
import proofs.«173579_j74363063763371_2_alg».proof.Proof.AttnRow
import proofs.«173579_j74363063763371_2_alg».proof.Proof.LibBatchDot
import proofs.«173579_j74363063763371_2_alg».proof.Proof.LibSoftmaxLast
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.StepAt

open Idealize.ShloMosaic Idealize.ShloMosaic.TcCoe Idealize.ShloMosaic.ValueIdx
open Cert.KernelIdeal Cert.KernelIdeal.Gen Cert.KernelIdeal.Loop Cert.Attn

/-- The pattern of −∞ is the bottom of the extended reals. -/
theorem negInf : Ideal.ofBits .f32 0xFF800000#32 = (⊥ : EReal) := by simp [Ideal.ofBits, Ideal.ieee]

/-- The score of query row (b, r) against row j of a key tile: the inner product over the 64 features. -/
def sc (q : FVec Ideal S4x512x64 .bf16) (kt : Vec Ideal S4x512x64 .f32) (b : Fin 4) (r j : Fin 512) : EReal :=
  ∑ e : Fin 64, q (ix3 b r e) * kt (ix3 b j e)

variable (q : FVec Ideal S4x512x64 .bf16) (kt vt : Vec Ideal S4x512x64 .f32)
  (M L : Vec Ideal S4x512x1 .f32) (A : Vec Ideal S4x512x64 .f32) (b : Fin 4) (r : Fin 512)

/-- The tile's score block at (b, r, j). -/
theorem pay8_apply (j : Fin 512) : k0_pay8 (F := Ideal) q kt (ix3 b r j) = sc q kt b r j := by
  unfold k0_pay8 sc
  exact (Ideal.matmul_constant_zero_apply dot_S4x512x64_S4x512x64_S4x512x512_2_2_1_1_0_0 none q
    (truncf .bf16 kt bitsLt_bf16_f32) (ix3 b r j)).trans
    (BatchDot.pair_sum dot_S4x512x64_S4x512x64_S4x512x512_2_2_1_1_0_0_wf q kt b r j)

/-- The new maximum of row (b, r): the old one joined with the largest of the tile's 512 scores. -/
theorem pay9_apply (u : Fin 1) :
    k0_pay9 (F := Ideal) q kt M (ix3 b r u)
      = max (M (ix3 b r u)) ((Finset.univ : Finset (Fin 512)).fold max (⊥ : EReal) (fun j => sc q kt b r j)) := by
  unfold k0_pay9
  refine (maximumf_apply (φ := .f32) M _ (ix3 b r u)).trans ?_
  refine congrArg (max (M (ix3 b r u))) ?_
  refine (SoftmaxLast.shapeCast_keep_apply _ shapeCasts_S4x512_S4x512x1 b r u).trans ?_
  refine (SoftmaxLast.laneMax_apply (k0_pay8 (F := Ideal) q kt) 0xFF800000#32 reduces_S4x512x512_S4x512 (.inl rfl) rfl b r).trans ?_
  rw [negInf]
  exact congrArg (fun f => (Finset.univ : Finset (Fin 512)).fold max (⊥ : EReal) f) (funext fun j => pay8_apply q kt b r j)

/-- The rescaling factor of row (b, r): the exponential of the old maximum minus the new. -/
theorem pay10_apply (u : Fin 1) :
    k0_pay10 (F := Ideal) q kt M (ix3 b r u) = Ideal.exp (M (ix3 b r u) - k0_pay9 (F := Ideal) q kt M (ix3 b r u)) := rfl

/-- The tile's exponentials at (b, r, j): of the score minus the row's new maximum. -/
theorem pay11_apply (j : Fin 512) :
    k0_pay11 (F := Ideal) q kt M (ix3 b r j)
      = Ideal.exp (sc q kt b r j - k0_pay9 (F := Ideal) q kt M (ix3 b r (0 : Fin 1))) := by
  unfold k0_pay11
  show Ideal.exp (k0_pay8 (F := Ideal) q kt (ix3 b r j)
    - broadcastTo S4x512x512 (k0_pay9 (F := Ideal) q kt M) broadcasts_S4x512x1_S4x512x512 (ix3 b r j)) = _
  rw [SoftmaxLast.broadcastTo_last_apply, pay8_apply]

/-- The new sum of row (b, r): the old one rescaled plus the tile's exponentials. -/
theorem pay12_apply (u : Fin 1) :
    k0_pay12 (F := Ideal) q kt M L (ix3 b r u)
      = k0_pay10 (F := Ideal) q kt M (ix3 b r u) * L (ix3 b r u) + ∑ j : Fin 512, k0_pay11 (F := Ideal) q kt M (ix3 b r j) := by
  unfold k0_pay12
  rw [shapeCast_self]
  show k0_pay10 (F := Ideal) q kt M (ix3 b r u) * L (ix3 b r u)
    + shapeCast S4x512x1 (multiReduction .add [2] S4x512 (k0_pay11 (F := Ideal) q kt M) 0x00000000#32
        reduces_S4x512x512_S4x512 (.inl rfl) rfl) shapeCasts_S4x512_S4x512x1 (ix3 b r u) = _
  refine congrArg (fun t => k0_pay10 (F := Ideal) q kt M (ix3 b r u) * L (ix3 b r u) + t) ?_
  exact (SoftmaxLast.shapeCast_keep_apply _ shapeCasts_S4x512_S4x512x1 b r u).trans
    (SoftmaxLast.laneSum_apply (k0_pay11 (F := Ideal) q kt M) 0x00000000#32 reduces_S4x512x512_S4x512 (.inl rfl) rfl b r)

/-- The new accumulator at (b, r, d): the old entry rescaled plus the tile's exponentials times the value tile's column d. -/
theorem pay13_apply (d : Fin 64) :
    k0_pay13 (F := Ideal) q kt vt M A (ix3 b r d)
      = k0_pay10 (F := Ideal) q kt M (ix3 b r (0 : Fin 1)) * A (ix3 b r d)
        + ∑ j : Fin 512, k0_pay11 (F := Ideal) q kt M (ix3 b r j) * vt (ix3 b j d) := by
  unfold k0_pay13
  show broadcastTo S4x512x64 (k0_pay10 (F := Ideal) q kt M) broadcasts_S4x512x1_S4x512x64 (ix3 b r d) * A (ix3 b r d)
    + matmul dot_S4x512x512_S4x512x64_S4x512x64_2_1_1_2_0_0 none (truncf .bf16 (k0_pay11 (F := Ideal) q kt M) bitsLt_bf16_f32)
        (truncf .bf16 vt bitsLt_bf16_f32) (constant S4x512x64 .f32 0x00000000#32) (ix3 b r d) = _
  rw [SoftmaxLast.broadcastTo_last_apply]
  exact congrArg (fun t => k0_pay10 (F := Ideal) q kt M (ix3 b r (0 : Fin 1)) * A (ix3 b r d) + t)
    ((Ideal.matmul_constant_zero_apply dot_S4x512x512_S4x512x64_S4x512x64_2_1_1_2_0_0 none
      (truncf .bf16 (k0_pay11 (F := Ideal) q kt M) bitsLt_bf16_f32) (truncf .bf16 vt bitsLt_bf16_f32) (ix3 b r d)).trans
      (BatchDot.mix_sum dot_S4x512x512_S4x512x64_S4x512x64_2_1_1_2_0_0_wf (k0_pay11 (F := Ideal) q kt M) vt b r d))

/-- The two same-shape casts before the scratch stores change nothing. -/
theorem pay5_eq (v : FVec Ideal S4x512x64 .f32) : k0_pay5 (F := Ideal) v = v := shapeCast_self _ _
theorem pay6_eq (v : FVec Ideal S4x512x1 .f32) : k0_pay6 (F := Ideal) v = v := shapeCast_self _ _

/-- The output at (b, r, d): the accumulator's entry over the row's sum. -/
theorem pay7_apply (d : Fin 64) :
    k0_pay7 (F := Ideal) A L (ix3 b r d) = Ideal.div (A (ix3 b r d)) (L (ix3 b r (0 : Fin 1))) := by
  unfold k0_pay7
  show Ideal.div (A (ix3 b r d)) (broadcastTo S4x512x64 L broadcasts_S4x512x1_S4x512x64 (ix3 b r d)) = _
  rw [SoftmaxLast.broadcastTo_last_apply]

/-- The scaled queries at (b, r, e): the query times the kernel's scale. -/
theorem pay4_apply (x0 : Vec Ideal S4x512x64 .f32) (e : Fin 64) :
    k0_pay4 (F := Ideal) x0 (ix3 b r e) = x0 (ix3 b r e) * Ideal.ofBits .f32 0x3E000000#32 := rfl

/-- The initial fill: −∞ for the maxima, 0 for the sums and the accumulator. -/
theorem pay1_apply (y : S4x512x1.Idx) : k0_pay1 (F := Ideal) y = (⊥ : EReal) := by
  unfold k0_pay1; rw [shapeCast_self]; exact negInf
theorem pay2_apply (y : S4x512x1.Idx) : k0_pay2 (F := Ideal) y = (0 : EReal) := by
  unfold k0_pay2; rw [shapeCast_self]; exact Ideal.ofBits_zero_f32
theorem pay3_apply (y : S4x512x64.Idx) : k0_pay3 (F := Ideal) y = (0 : EReal) := by
  unfold k0_pay3; rw [shapeCast_self]; exact Ideal.ofBits_zero_f32

/-- ONE STEP at row (b, r) and column d: the three entries after the step, from the three entries before it. -/
theorem step_apply (st : Scratch Ideal) (d : Fin 64) :
    ((step q kt vt st).1 (ix3 b r (0 : Fin 1)), (step q kt vt st).2.1 (ix3 b r (0 : Fin 1)), (step q kt vt st).2.2 (ix3 b r d))
      = (max (st.1 (ix3 b r (0 : Fin 1))) ((Finset.univ : Finset (Fin 512)).fold max (⊥ : EReal) (fun j => sc q kt b r j)),
         Ideal.exp (st.1 (ix3 b r (0 : Fin 1)) - max (st.1 (ix3 b r (0 : Fin 1))) ((Finset.univ : Finset (Fin 512)).fold max (⊥ : EReal) (fun j => sc q kt b r j))) * st.2.1 (ix3 b r (0 : Fin 1))
           + ∑ j : Fin 512, Ideal.exp (sc q kt b r j - max (st.1 (ix3 b r (0 : Fin 1))) ((Finset.univ : Finset (Fin 512)).fold max (⊥ : EReal) (fun j => sc q kt b r j))),
         Ideal.exp (st.1 (ix3 b r (0 : Fin 1)) - max (st.1 (ix3 b r (0 : Fin 1))) ((Finset.univ : Finset (Fin 512)).fold max (⊥ : EReal) (fun j => sc q kt b r j))) * st.2.2 (ix3 b r d)
           + ∑ j : Fin 512, Ideal.exp (sc q kt b r j - max (st.1 (ix3 b r (0 : Fin 1))) ((Finset.univ : Finset (Fin 512)).fold max (⊥ : EReal) (fun j => sc q kt b r j))) * vt (ix3 b j d)) := by
  unfold step
  simp only [pay5_eq, pay6_eq, pay12_apply, pay13_apply, pay10_apply, pay11_apply, pay9_apply]

end Cert.KernelIdeal.StepAt

end
-- ==== Proof.LibScaleSum.lean ====
/-
  Scaling a finite sum of extended reals by a finite non-negative number.

  On the extended reals multiplication does not distribute over addition in general: x · (⊤ + ⊥) and x · ⊤ + x · ⊥
  differ for a negative x, and ⊤ · (1 + (-1)) is 0 while ⊤ · 1 + ⊤ · (-1) is ⊥. It does when the factor c is
  non-negative and finite: then y ↦ c · y is monotone, sends each infinity to itself or (for c = 0) everything to 0,
  and so respects the convention ⊤ + ⊥ = ⊥. Hence such a factor moves inside any finite sum, whatever the summands.
-/
import Mathlib.Data.EReal.Operations
import Mathlib.Algebra.BigOperators.Group.Finset.Basic

open scoped BigOperators

namespace EReal

/-- A finite non-negative factor moves inside a finite sum of extended reals. -/
theorem mul_sum_of_nonneg_of_ne_top {ι : Type*} (s : Finset ι) {c : EReal} (h0 : 0 ≤ c) (ht : c ≠ ⊤)
    (f : ι → EReal) : c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- The same with the factor on the right. -/
theorem sum_mul_of_nonneg_of_ne_top {ι : Type*} (s : Finset ι) {c : EReal} (h0 : 0 ≤ c) (ht : c ≠ ⊤)
    (f : ι → EReal) : (∑ i ∈ s, f i) * c = ∑ i ∈ s, f i * c := by
  rw [EReal.mul_comm, mul_sum_of_nonneg_of_ne_top s h0 ht]
  exact Finset.sum_congr rfl fun i _ => EReal.mul_comm _ _

end EReal
-- ==== Proof.AttnSpec.lean ====
/-
  The function both programs compute.

  For batch item b, query row q and output column d: the score of q against key k is the inner product over the 64
  features, scaled by 1/8; the output is the sum over the 4096 keys of the softmax of the scores (taken with the row's
  maximum subtracted, its denominator 0 plus the sum of the exponentials) times the value's entry (b, k, d).
  The scale 1/8 may sit on the query inside the feature sum or on the whole inner product: a finite non-negative
  factor moves across a finite sum of extended reals, and multiplication is commutative and associative there.
-/
import proofs.«173579_j74363063763371_2_alg».proof.Proof.LibScaleSum
import Idealize.ShloMosaic.Lib.ValueIdx
import Idealize.ShloMosaic.PureOps.Ideal.Laws

noncomputable section

open scoped BigOperators

namespace Cert.Attn

open Idealize.ShloMosaic Idealize.ShloMosaic.ValueIdx

/-- An array of the three arguments' shape, as extended reals. -/
abbrev Arr : Type := (⟨3, ![4, 4096, 64]⟩ : Shape).Idx → EReal

/-- The kernel's scale, as the float pattern it is printed with. -/
abbrev c8 : EReal := Ideal.ofBits .f32 0x3E000000#32

/-- That pattern is one eighth. -/
theorem c8_eq : c8 = ((1 / 8 : ℝ) : EReal) := by
  simp [c8, Ideal.ofBits, Ideal.ieee, -EReal.coe_mul]; norm_num

theorem c8_nonneg : (0 : EReal) ≤ c8 := by
  rw [c8_eq]; exact EReal.coe_nonneg.mpr (by norm_num)

theorem c8_ne_top : c8 ≠ ⊤ := by
  rw [c8_eq]; exact EReal.coe_ne_top _

/-- The score of query row (b, q) against key k, the scale on the query. -/
def score (Q K : Arr) (b : Fin 4) (q k : Fin 4096) : EReal :=
  ∑ e : Fin 64, (Q (ix3 b q e) * c8) * K (ix3 b k e)

/-- The same with the scale on the whole inner product. -/
theorem score_eq (Q K : Arr) (b : Fin 4) (q k : Fin 4096) :
    (∑ e : Fin 64, Q (ix3 b q e) * K (ix3 b k e)) * c8 = score Q K b q k := by
  unfold score
  rw [EReal.sum_mul_of_nonneg_of_ne_top Finset.univ c8_nonneg c8_ne_top]
  exact Finset.sum_congr rfl fun e _ => mul_right_comm _ _ _

/-- The softmax-weighted sum of the values v over a row of scores s. -/
def attnRow (s v : Fin 4096 → EReal) : EReal :=
  ∑ k : Fin 4096, Ideal.div (Ideal.exp (s k - Finset.univ.sup s))
    ((0 : EReal) + ∑ k' : Fin 4096, Ideal.exp (s k' - Finset.univ.sup s)) * v k

/-- The output at (b, q, d). -/
def attnAt (Q K V : Arr) (b : Fin 4) (q : Fin 4096) (d : Fin 64) : EReal :=
  attnRow (score Q K b q) (fun k => V (ix3 b k d))

/-- The whole output array. -/
def attn (Q K V : Arr) : Arr := fun i => attnAt Q K V (i 0) (i 1) (i 2)

theorem attn_apply (Q K V : Arr) (b : Fin 4) (q : Fin 4096) (d : Fin 64) :
    attn Q K V (ix3 b q d) = attnAt Q K V b q d := rfl

end Cert.Attn

end
-- ==== Proof.KernelRow.lean ====
/-
  The body's output entry as one attention row.

  Tile k of a resident [4, 4096, 64] array at (b, j, e) is the array at (b, 512 k + j, e). So along the loop the three
  scratch entries of row (b, r) and column d — maximum, sum, accumulator — are the running triple of that row over the
  8 key tiles, with scores the scaled query row against every key of batch item b and values column d of batch item b.
  When every entry of the three arrays is a real number the scores are real, and the output entry, accumulator over
  sum, is the softmax-weighted sum of the values.
-/
import proofs.«173579_j74363063763371_2_alg».proof.Proof.StepAt
import proofs.«173579_j74363063763371_2_alg».proof.Proof.AttnSpec

set_option maxRecDepth 16384

noncomputable section

open scoped BigOperators

namespace Cert.KernelIdeal.KernelRow

open Idealize.ShloMosaic Idealize.ShloMosaic.TcCoe Idealize.ShloMosaic.ValueIdx
open Cert.KernelIdeal Cert.KernelIdeal.Gen Cert.KernelIdeal.Loop Cert.KernelIdeal.StepAt Cert.Attn

/-- Tile k of a resident array at (b, j, e): the array at (b, 512 k + j, e). -/
theorem tile_apply (X : Vec Ideal S4x4096x64 .f32) (k : Fin k0_t1_loop.trips) (b : Fin 4) (j : Fin 512) (e : Fin 64)
    (h : 512 * k.val + j.val < 4096) :
    tile X k (ix3 b j e) = X (ix3 b (⟨512 * k.val + j.val, h⟩ : Fin 4096) e) := by
  unfold tile
  refine congrArg X (funext fun a => Fin.ext ?_)
  have ho := k0_off1_eq k
  match a with
  | ⟨0, _⟩ => show k0_off1 k 0 + 1 * b.val = b.val; rw [ho]; simp
  | ⟨1, _⟩ => show k0_off1 k 1 + 1 * j.val = 512 * k.val + j.val; rw [ho]; simp
  | ⟨2, _⟩ => show k0_off1 k 2 + 1 * e.val = e.val; rw [ho]; simp

/-- The scores of row (b, r) of a query block against the 4096 keys of batch item b, the scale on the query. -/
def sRow (x0 : Vec Ideal S4x512x64 .f32) (x1 : Vec Ideal S4x4096x64 .f32) (b : Fin 4) (r : Fin 512) (k : Fin 4096) : EReal :=
  ∑ e : Fin 64, (x0 (ix3 b r e) * c8) * x1 (ix3 b k e)

/-- Column d of batch item b of the values. -/
def vCol (x2 : Vec Ideal S4x4096x64 .f32) (b : Fin 4) (d : Fin 64) (k : Fin 4096) : EReal := x2 (ix3 b k d)

variable (x0 : Vec Ideal S4x512x64 .f32) (x1 x2 : Vec Ideal S4x4096x64 .f32) (b : Fin 4) (r : Fin 512) (d : Fin 64)

/-- ALONG THE LOOP the three scratch entries of row (b, r), column d, are the row's running triple. -/
theorem stateAt_row (n : ℕ) (hn : n ≤ 8) :
    ((stateAt x0 x1 x2 n).1 (ix3 b r (0 : Fin 1)), (stateAt x0 x1 x2 n).2.1 (ix3 b r (0 : Fin 1)),
        (stateAt x0 x1 x2 n).2.2 (ix3 b r d))
      = rowState (sRow x0 x1 b r) (vCol x2 b d) n := by
  induction n with
  | zero =>
    show ((k0_pay1 (F := Ideal)) (ix3 b r (0 : Fin 1)), (k0_pay2 (F := Ideal)) (ix3 b r (0 : Fin 1)), (k0_pay3 (F := Ideal)) (ix3 b r d)) = ((⊥ : EReal), (0 : EReal), (0 : EReal))
    rw [pay1_apply, pay2_apply, pay3_apply]
  | succ n ih =>
    have h8 : n < 8 := hn
    have ht : n < k0_t1_loop.trips := by rw [trips_eq]; exact h8
    have ih' := ih (Nat.le_of_lt h8)
    have e1 : (stateAt x0 x1 x2 n).1 (ix3 b r (0 : Fin 1)) = (rowState (sRow x0 x1 b r) (vCol x2 b d) n).1 := congrArg Prod.fst ih'
    have e2 : (stateAt x0 x1 x2 n).2.1 (ix3 b r (0 : Fin 1)) = (rowState (sRow x0 x1 b r) (vCol x2 b d) n).2.1 :=
      congrArg (fun p : EReal × EReal × EReal => p.2.1) ih'
    have e3 : (stateAt x0 x1 x2 n).2.2 (ix3 b r d) = (rowState (sRow x0 x1 b r) (vCol x2 b d) n).2.2 :=
      congrArg (fun p : EReal × EReal × EReal => p.2.2) ih'
    have hsc : ∀ j : Fin 512, sc (k0_pay4 (F := Ideal) x0) (tile x1 ⟨n, ht⟩) b r j = sRow x0 x1 b r (tileEmb ⟨n, h8⟩ j) := fun j => by
      unfold sc sRow
      refine Finset.sum_congr rfl fun e _ => ?_
      rw [pay4_apply, tile_apply x1 ⟨n, ht⟩ b j e (by have := j.isLt; show 512 * n + j.val < 4096; omega)]
      rfl
    have hv : ∀ j : Fin 512, tile x2 ⟨n, ht⟩ (ix3 b j d) = vCol x2 b d (tileEmb ⟨n, h8⟩ j) := fun j => by
      rw [tile_apply x2 ⟨n, ht⟩ b j d (by have := j.isLt; show 512 * n + j.val < 4096; omega)]
      rfl
    rw [stateAt_succ x0 x1 x2 n ht, step_apply, rowState_succ _ _ n h8, e1, e2, e3]
    unfold rowStep
    simp only [hsc, hv]

/-- The output entry (b, r, d) from the scratch blocks after 8 steps: the row's accumulator over the row's sum. -/
theorem out_row_at (n : ℕ) (hn : n = 8) :
    k0_pay7 (F := Ideal) (stateAt x0 x1 x2 n).2.2 (stateAt x0 x1 x2 n).2.1 (ix3 b r d)
      = Ideal.div (rowState (sRow x0 x1 b r) (vCol x2 b d) 8).2.2 (rowState (sRow x0 x1 b r) (vCol x2 b d) 8).2.1 := by
  subst hn
  have h := stateAt_row x0 x1 x2 b r d 8 (le_refl 8)
  generalize stateAt x0 x1 x2 8 = st at h ⊢
  generalize rowState (sRow x0 x1 b r) (vCol x2 b d) 8 = rs at h ⊢
  have e2 : st.2.1 (ix3 b r (0 : Fin 1)) = rs.2.1 := congrArg (fun p : EReal × EReal × EReal => p.2.1) h
  have e3 : st.2.2 (ix3 b r d) = rs.2.2 := congrArg (fun p : EReal × EReal × EReal => p.2.2) h
  exact (pay7_apply (L := st.2.1) (A := st.2.2) (b := b) (r := r) d).trans (by rw [e2, e3])

/-- The body's output entry (b, r, d): the loop runs 8 trips. -/
theorem out_row :
    k0_pay7 (F := Ideal) (stateAt x0 x1 x2 k0_t1_loop.trips).2.2 (stateAt x0 x1 x2 k0_t1_loop.trips).2.1 (ix3 b r d)
      = Ideal.div (rowState (sRow x0 x1 b r) (vCol x2 b d) 8).2.2 (rowState (sRow x0 x1 b r) (vCol x2 b d) 8).2.1 :=
  out_row_at x0 x1 x2 b r d k0_t1_loop.trips trips_eq

/-- A finite sum of real numbers is a real number. -/
theorem sum_isReal {ι : Type} (A : Finset ι) (f : ι → EReal) (hf : ∀ i ∈ A, ∃ a : ℝ, f i = (a : EReal)) :
    ∃ a : ℝ, ∑ i ∈ A, f i = (a : EReal) := by
  classical
  induction A using Finset.induction_on with
  | empty => exact ⟨0, by simp⟩
  | insert i A hi ih =>
    obtain ⟨a, ha⟩ := hf i (Finset.mem_insert_self i A)
    obtain ⟨a', ha'⟩ := ih fun j hj => hf j (Finset.mem_insert_of_mem hj)
    exact ⟨a + a', by rw [Finset.sum_insert hi, ha, ha', EReal.coe_add]⟩

/-- With real queries and keys every score is a real number. -/
theorem sRow_isReal (h0 : ∀ y, ∃ a : ℝ, x0 y = (a : EReal)) (h1 : ∀ y, ∃ a : ℝ, x1 y = (a : EReal)) (k : Fin 4096) :
    ∃ a : ℝ, sRow x0 x1 b r k = (a : EReal) := by
  unfold sRow
  refine sum_isReal Finset.univ _ fun e _ => ?_
  obtain ⟨a, ha⟩ := h0 (ix3 b r e)
  obtain ⟨a', ha'⟩ := h1 (ix3 b k e)
  exact ⟨a * (1 / 8) * a', by rw [ha, ha', c8_eq, ← EReal.coe_mul, ← EReal.coe_mul]⟩

/-- THE OUTPUT ENTRY, for real arrays: the softmax-weighted sum of column d of the values over the row's scores. -/
theorem out_row_attn (h0 : ∀ y, ∃ a : ℝ, x0 y = (a : EReal)) (h1 : ∀ y, ∃ a : ℝ, x1 y = (a : EReal))
    (h2 : ∀ y, ∃ a : ℝ, x2 y = (a : EReal)) :
    k0_pay7 (F := Ideal) (stateAt x0 x1 x2 k0_t1_loop.trips).2.2 (stateAt x0 x1 x2 k0_t1_loop.trips).2.1 (ix3 b r d)
      = attnRow (sRow x0 x1 b r) (vCol x2 b d) := by
  have hs : ∀ k, sRow x0 x1 b r k ≠ ⊤ := fun k => by
    obtain ⟨a, ha⟩ := sRow_isReal x0 x1 b r h0 h1 k; rw [ha]; exact EReal.coe_ne_top a
  have hex : ∃ k, sRow x0 x1 b r k ≠ ⊥ := ⟨0, by
    obtain ⟨a, ha⟩ := sRow_isReal x0 x1 b r h0 h1 0; rw [ha]; exact EReal.coe_ne_bot a⟩
  have hv : vCol x2 b d = fun k => (((vCol x2 b d k).toReal : ℝ) : EReal) := funext fun k => by
    obtain ⟨a, ha⟩ := h2 (ix3 b k d)
    show x2 (ix3 b k d) = (((x2 (ix3 b k d)).toReal : ℝ) : EReal)
    rw [ha, EReal.toReal_coe]
  rw [out_row, hv]
  exact row_out (sRow x0 x1 b r) (fun k => (vCol x2 b d k).toReal) hs hex

end Cert.KernelIdeal.KernelRow

end
-- ==== Proof.KernelArray.lean ====
/-
  The kernel's output array.

  Grid point t handles query rows 512 t … 512 t + 511: its query block and its output block are those rows of all 4
  batch items, and the key and value windows are the whole arrays at every point. So what point t writes back is rows
  512 t … 512 t + 511 of the attention function of the three arrays, when their entries are real; the 8 output blocks
  tile the output array, which therefore ends holding that function.
-/
import proofs.«173579_j74363063763371_2_alg».proof.Proof.KernelRow
import Idealize.ShloMosaic.Lib.Pipeline.Value

set_option maxRecDepth 16384

noncomputable section

open scoped BigOperators

namespace Cert.KernelIdeal.AttnValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Loop Cert.KernelIdeal.StepAt Cert.KernelIdeal.KernelRow Cert.Attn

variable (m : (ℓ : Loc nD τ sig) → Buf (Elt Ideal) ℓ) (ρ : Dev nD → PrngReg)

/-- The windows' block indices at point t: the query and output windows move along the rows with t; the key and value
    windows stay at the origin. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = t.val ∧ win0_3.index t (2 : Fin 3) = 0 :=
  (by decide +kernel : ∀ t : Fin grid0.N, _)

/-- There are 8 grid points. -/
theorem t_lt (t : Fin cfg0.N) : t.val < 8 := by
  have h : grid0.N = 8 := N_0
  exact h ▸ t.isLt

/-- The query block at point t, at (b, r, e): the queries at (b, 512 t + r, e). -/
theorem iblk0_apply (c : Dev nD) (t : Fin cfg0.N) (b : Fin 4) (r : Fin 512) (e : Fin 64) (h : 512 * t.val + r.val < 4096) :
    iblk m c 0 t (ix3 b r e) = V m c main_arg0 (ix3 b (⟨512 * t.val + r.val, h⟩ : Fin 4096) e) := by
  obtain ⟨e0, e1, e2, -⟩ := idx_facts t
  show V m c main_arg0 (((cfg0.win 0).blk t).view.emb (ix3 b r e)) = _
  refine congrArg (V m c main_arg0) (funext fun a => Fin.ext ?_)
  match a with
  | ⟨0, _⟩ => show win0_0.index t (0 : Fin 3) * 4 + 1 * b.val = b.val; omega
  | ⟨1, _⟩ => show win0_0.index t (1 : Fin 3) * 512 + 1 * r.val = 512 * t.val + r.val; omega
  | ⟨2, _⟩ => show win0_0.index t (2 : Fin 3) * 64 + 1 * e.val = e.val; omega

/-- The key window's block at any point is the whole key array. -/
theorem iblk1_apply (c : Dev nD) (t : Fin cfg0.N) (b : Fin 4) (k : Fin 4096) (e : Fin 64) :
    iblk m c 1 t (ix3 b k e) = V m c main_arg1 (ix3 b k e) := by
  obtain ⟨-, -, -, e0, e1, e2, -⟩ := idx_facts t
  show V m c main_arg1 (((cfg0.win 1).blk t).view.emb (ix3 b k e)) = _
  refine congrArg (V m c main_arg1) (funext fun a => Fin.ext ?_)
  match a with
  | ⟨0, _⟩ => show win0_1.index t (0 : Fin 3) * 4 + 1 * b.val = b.val; omega
  | ⟨1, _⟩ => show win0_1.index t (1 : Fin 3) * 4096 + 1 * k.val = k.val; omega
  | ⟨2, _⟩ => show win0_1.index t (2 : Fin 3) * 64 + 1 * e.val = e.val; omega

/-- The value window's block at any point is the whole value array. -/
theorem iblk2_apply (c : Dev nD) (t : Fin cfg0.N) (b : Fin 4) (k : Fin 4096) (e : Fin 64) :
    iblk m c 2 t (ix3 b k e) = V m c main_arg2 (ix3 b k e) := by
  obtain ⟨-, -, -, -, -, -, e0, e1, e2, -⟩ := idx_facts t
  show V m c main_arg2 (((cfg0.win 2).blk t).view.emb (ix3 b k e)) = _
  refine congrArg (V m c main_arg2) (funext fun a => Fin.ext ?_)
  match a with
  | ⟨0, _⟩ => show win0_2.index t (0 : Fin 3) * 4 + 1 * b.val = b.val; omega
  | ⟨1, _⟩ => show win0_2.index t (1 : Fin 3) * 4096 + 1 * k.val = k.val; omega
  | ⟨2, _⟩ => show win0_2.index t (2 : Fin 3) * 64 + 1 * e.val = e.val; omega

/-- Entry (b, r, d) of the output block at point t is entry (b, 512 t + r, d) of the output array. -/
theorem oblk_emb (t : Fin cfg0.N) (b : Fin 4) (r : Fin 512) (d : Fin 64) (h : 512 * t.val + r.val < 4096) :
    ((cfg0.win 3).blk t).view.emb (ix3 b r d) = ix3 b (⟨512 * t.val + r.val, h⟩ : Fin 4096) d := by
  obtain ⟨-, -, -, -, -, -, -, -, -, e0, e1, e2⟩ := idx_facts t
  refine funext fun a => Fin.ext ?_
  match a with
  | ⟨0, _⟩ => show win0_3.index t (0 : Fin 3) * 4 + 1 * b.val = b.val; omega
  | ⟨1, _⟩ => show win0_3.index t (1 : Fin 3) * 512 + 1 * r.val = 512 * t.val + r.val; omega
  | ⟨2, _⟩ => show win0_3.index t (2 : Fin 3) * 64 + 1 * d.val = d.val; omega

section Real

variable (c : Dev nD)

/-- WHAT POINT t WRITES BACK is block t of the attention function of the three arrays as the region finds them. -/
theorem flushed_eq (hQ : ∀ y, ∃ a : ℝ, V m c main_arg0 y = (a : EReal)) (hK : ∀ y, ∃ a : ℝ, V m c main_arg1 y = (a : EReal))
    (hV : ∀ y, ∃ a : ℝ, V m c main_arg2 y = (a : EReal)) (t : Fin cfg0.N) :
    (dats m 0 c).flushed 3 t
      = ((cfg0.win 3).blk t).view.read (Elt Ideal) (attn (V m c main_arg0) (V m c main_arg1) (V m c main_arg2)) := by
  have ht := t_lt t
  rw [Cert.KernelIdeal.Value.flushed3_A]
  funext j
  obtain ⟨b, r, d, rfl⟩ : ∃ (b : Fin 4) (r : Fin 512) (d : Fin 64), j = ix3 b r d := ⟨j 0, j 1, j 2, eq_ix3 j⟩
  have hr : 512 * t.val + r.val < 4096 := by have := r.isLt; omega
  show out0_A_3 c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _)
      (iblk m c 0 t) (iblk m c 1 t) (iblk m c 2 t) (ix3 b r d)
    = attn (V m c main_arg0) (V m c main_arg1) (V m c main_arg2) (((cfg0.win 3).blk t).view.emb (ix3 b r d))
  refine (congrFun (Loop.out_eq c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _)
      (iblk m c 0 t) (iblk m c 1 t) (iblk m c 2 t)) (ix3 b r d)).trans ?_
  refine (out_row_attn (iblk m c 0 t) (iblk m c 1 t) (iblk m c 2 t) b r d
    (fun y => hQ (((cfg0.win 0).blk t).view.emb y)) (fun y => hK (((cfg0.win 1).blk t).view.emb y))
    (fun y => hV (((cfg0.win 2).blk t).view.emb y))).trans ?_
  rw [oblk_emb t b r d hr, attn_apply]
  unfold attnAt
  have hs : sRow (iblk m c 0 t) (iblk m c 1 t) b r = score (V m c main_arg0) (V m c main_arg1) b (⟨512 * t.val + r.val, hr⟩ : Fin 4096) :=
    funext fun k => by
      unfold sRow score
      exact Finset.sum_congr rfl fun e _ => by rw [iblk0_apply m c t b r e hr, iblk1_apply m c t b k e]
  have hv : vCol (iblk m c 2 t) b d = fun k => V m c main_arg2 (ix3 b k d) :=
    funext fun k => by unfold vCol; exact iblk2_apply m c t b k d
  rw [hs, hv]

/-- An index of the output array is in point t's block iff each coordinate is in the block's range on its axis. -/
theorem mem_blk (t : Fin cfg0.N) (i : S4x4096x64.Idx) :
    i ∈ ((cfg0.win 3).blk t).view.set
      ↔ ∀ a : Fin 3, win0_3.index t a * S4x512x64.size a ≤ (i a).val ∧ (i a).val < win0_3.index t a * S4x512x64.size a + S4x512x64.size a := by
  show i ∈ ((View.whole main_v0).slice (win0_3.rect t)).set ↔ _
  rw [View.set_slice_whole, Rect.mem_set_unit]
  exact Iff.rfl

/-- The 8 output blocks cover the output array: row q is in the block of point q / 512. -/
theorem cover (i : S4x4096x64.Idx) :
    ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 64 := (i 2).isLt
  have hN : grid0.N = 8 := N_0
  refine ⟨⟨(i 1).val / 512, by show (i 1).val / 512 < grid0.N; rw [hN]; omega⟩, flush0_3 _, ?_⟩
  rw [mem_blk]
  obtain ⟨-, -, -, -, -, -, -, -, -, e0, e1, e2⟩ := idx_facts ⟨(i 1).val / 512, by show (i 1).val / 512 < grid0.N; rw [hN]; omega⟩
  intro a
  match a with
  | ⟨0, _⟩ => show win0_3.index _ (0 : Fin 3) * 4 ≤ (i 0).val ∧ (i 0).val < win0_3.index _ (0 : Fin 3) * 4 + 4; rw [e0]; omega
  | ⟨1, _⟩ => show win0_3.index _ (1 : Fin 3) * 512 ≤ (i 1).val ∧ (i 1).val < win0_3.index _ (1 : Fin 3) * 512 + 512; rw [e1]; show (i 1).val / 512 * 512 ≤ (i 1).val ∧ (i 1).val < (i 1).val / 512 * 512 + 512; omega
  | ⟨2, _⟩ => show win0_3.index _ (2 : Fin 3) * 64 ≤ (i 2).val ∧ (i 2).val < win0_3.index _ (2 : Fin 3) * 64 + 64; rw [e2]; omega

/-- THE OUTPUT ARRAY after the run: the attention function of the three arrays. -/
theorem final (hQ : ∀ y, ∃ a : ℝ, V m c main_arg0 y = (a : EReal)) (hK : ∀ y, ∃ a : ℝ, V m c main_arg1 y = (a : EReal))
    (hV : ∀ y, ∃ a : ℝ, V m c main_arg2 y = (a : EReal)) : (dats m 0 c).arrAt 3 cfg0.N = attn (V m c main_arg0) (V m c main_arg1) (V m c main_arg2) :=
  (dats m 0 c).arrAt_eq_of_cover 3 (attn (V m c main_arg0) (V m c main_arg1) (V m c main_arg2))
    (fun t _ => flushed_eq m c hQ hK hV t) cover

end Real

end Cert.KernelIdeal.AttnValue

end
-- ==== Proof.RefValue.lean ====
/-
  The reference program, read at an entry of its result, is the attention function of the specification.

  The program computes, for batch item b, query row q and key k, the inner product of the query and the key over the
  64 features and multiplies it by 1 / sqrt 64; that factor is one eighth, so the product is the specification's score
  (the scale moved onto the query). It takes the row's maximum as the larger of minus infinity and the maximum folded
  from minus infinity, which is the supremum of the row; subtracts it, exponentiates, divides by zero plus the row's sum
  of the exponentials, and contracts the weights with the values over the keys.
-/
import proofs.«173579_j74363063763371_2_alg».proof.Proof.AttnSpec
import proofs.«173579_j74363063763371_2_alg».proof.Proof.Gen.ReferenceIdeal.Read
import proofs.«173579_j74363063763371_2_alg».proof.Proof.LibSoftmaxLast
import proofs.«173579_j74363063763371_2_alg».proof.Proof.LibOnlineSoftmax

noncomputable section

open scoped BigOperators

namespace Cert.ReferenceIdeal.RefValue

open Cert.ReferenceIdeal Cert.ReferenceIdeal.Gen Cert.ReferenceIdeal.Read Idealize.ShloMosaic Idealize.ShloMosaic.ValueIdx

/-- The type of the program's three arguments at the ideal values. -/
abbrev A3 : Type := (⟨S4x4096x64, .f32⟩ : BufTy).Contents (Elt Ideal)

/-! ## The literals -/

/-- The pattern 0x3F800000 is one. -/
theorem bits_one : Ideal.ofBits .f32 0x3F800000#32 = ((1 : ℝ) : EReal) := by
  simp [Ideal.ofBits, Ideal.ieee, -EReal.coe_mul]; norm_num

/-- The pattern 0x42800000 is sixty-four. -/
theorem bits_sixtyfour : Ideal.ofBits .f32 0x42800000#32 = ((64 : ℝ) : EReal) := by
  simp [Ideal.ofBits, Ideal.ieee, -EReal.coe_mul]; norm_num

/-- The pattern 0xFF800000 is minus infinity. -/
theorem bits_neg_inf : Ideal.ofBits .f32 0xFF800000#32 = (⊥ : EReal) := by
  simp [Ideal.ofBits, Ideal.ieee]

/-- The square root of sixty-four is eight. -/
theorem sqrt_sixtyfour : Ideal.sqrt ((64 : ℝ) : EReal) = ((8 : ℝ) : EReal) := by
  show (if (64 : ℝ) < 0 then (⊥ : EReal) else ((Real.sqrt 64 : ℝ) : EReal)) = _
  rw [if_neg (by norm_num)]; congr 1; rw [show (64 : ℝ) = 8 ^ 2 by norm_num]; exact Real.sqrt_sq (by norm_num)

/-- The program's scale, one over the square root of sixty-four, is the specification's one eighth. -/
theorem scale_eq (i : S_.Idx) : val_main_v1 (F := Ideal) i = Cert.Attn.c8 := by
  rw [val_main_v1_apply, val_main_cst_0_apply, val_main_v0_apply, val_main_cst_apply]
  simp only [Ideal.hostDivf_def, Ideal.hostUnary_sqrt_def, Ideal.ofBits_def]
  rw [bits_one, bits_sixtyfour, sqrt_sixtyfour, Ideal.div_coe (by norm_num), Cert.Attn.c8_eq, ← EReal.coe_mul]
  congr 1; norm_num

/-! ## The scores -/

/-- The scaled inner product at (b, q, k) is the specification's score. -/
theorem v4_eq (Q K : A3) (b : Fin 4) (q k : Fin 4096) :
    val_main_v4 (F := Ideal) Q K (ix3 b q k) = Cert.Attn.score Q K b q k := by
  refine (val_main_v4_apply Q K (ix3 b q k)).trans ?_
  rw [val_main_v2_apply, val_main_v3_apply, scale_eq, Ideal.mulf_def]
  refine Eq.trans ?_ (Cert.Attn.score_eq Q K b q k)
  refine congrArg (· * Cert.Attn.c8) (Finset.sum_congr rfl fun e _ => ?_)
  have el : lidx_main_v2 (ix3 b q k) e = ix3 b q e :=
    funext fun a => Fin.ext (by match a with | ⟨0, _⟩ => rfl | ⟨1, _⟩ => rfl | ⟨2, _⟩ => rfl)
  have er : ridx_main_v2 (ix3 b q k) e = ix3 b k e :=
    funext fun a => Fin.ext (by match a with | ⟨0, _⟩ => rfl | ⟨1, _⟩ => rfl | ⟨2, _⟩ => rfl)
  exact congrArg₂ (· * ·) (congrArg Q el) (congrArg K er)

/-! ## The row maximum -/

/-- The reduce by the maximum from minus infinity over the keys is the supremum of the row of scores. -/
theorem v5_eq (Q K : A3) (b : Fin 4) (q : Fin 4096) :
    val_main_v5 (F := Ideal) Q K (ix2 b q) = Finset.univ.sup (Cert.Attn.score Q K b q) := by
  unfold val_main_v5
  refine (SoftmaxLast.hostMax_apply (val_main_v4 (F := Ideal) Q K) (val_main_cst_1 (F := Ideal))
    reducesTo_S4x4096x4096_S4x4096_d2 (by decide) h_S_ b q).trans ?_
  rw [val_main_cst_1_apply, Ideal.ofBits_def, bits_neg_inf, Cert.Lib.OnlineSoftmax.fold_max_eq_sup]
  exact congrArg (fun f => Finset.univ.sup f) (funext fun k => v4_eq Q K b q k)

/-- The larger of minus infinity and that maximum is the same supremum. -/
theorem v7_eq (Q K : A3) (b : Fin 4) (q : Fin 4096) :
    val_main_v7 (F := Ideal) Q K (ix2 b q) = Finset.univ.sup (Cert.Attn.score Q K b q) := by
  refine (val_main_v7_apply Q K (ix2 b q)).trans ?_
  rw [val_main_v6_apply, val_main_cst_2_apply, v5_eq, Ideal.maximumf_def, Ideal.ofBits_def, bits_neg_inf]
  exact max_bot_left _

/-- Repeated along the row, every entry of row (b, q) holds the row's supremum. -/
theorem v9_eq (Q K : A3) (b : Fin 4) (q k : Fin 4096) :
    val_main_v9 (F := Ideal) Q K (ix3 b q k) = Finset.univ.sup (Cert.Attn.score Q K b q) := by
  have e : idx_main_v8 (idx_main_v9 (ix3 b q k)) = ix2 b q :=
    funext fun a => Fin.ext (by match a with | ⟨0, _⟩ => rfl | ⟨1, _⟩ => rfl)
  exact (val_main_v9_apply Q K (ix3 b q k)).trans ((val_main_v8_apply Q K _).trans
    ((congrArg (val_main_v7 (F := Ideal) Q K) e).trans (v7_eq Q K b q)))

/-! ## The exponentials, their sum, the weights -/

/-- The exponential of the score less the row's supremum. -/
theorem v11_eq (Q K : A3) (b : Fin 4) (q k : Fin 4096) :
    val_main_v11 (F := Ideal) Q K (ix3 b q k)
      = Ideal.exp (Cert.Attn.score Q K b q k - Finset.univ.sup (Cert.Attn.score Q K b q)) := by
  refine (val_main_v11_apply Q K (ix3 b q k)).trans ?_
  rw [val_main_v10_apply, v4_eq, v9_eq, Ideal.hostUnary_exp_def, Ideal.subf_def]

/-- The row's sum of the exponentials, from zero. -/
theorem v12_eq (Q K : A3) (b : Fin 4) (q : Fin 4096) :
    val_main_v12 (F := Ideal) Q K (ix2 b q)
      = (0 : EReal) + ∑ k' : Fin 4096,
          Ideal.exp (Cert.Attn.score Q K b q k' - Finset.univ.sup (Cert.Attn.score Q K b q)) := by
  refine (val_main_v12_apply Q K (ix2 b q)).trans ?_
  rw [val_main_cst_3_apply, Ideal.ofBits_def, Ideal.ofBits_zero_f32]
  refine congrArg ((0 : EReal) + ·) (Finset.sum_congr rfl fun k' _ => ?_)
  have e : idx_main_v12 (ix2 b q) k' = ix3 b q k' :=
    funext fun a => Fin.ext (by match a with | ⟨0, _⟩ => rfl | ⟨1, _⟩ => rfl | ⟨2, _⟩ => rfl)
  exact (congrArg (val_main_v11 (F := Ideal) Q K) e).trans (v11_eq Q K b q k')

/-- Repeated along the row, every entry of row (b, q) holds the row's sum. -/
theorem v14_eq (Q K : A3) (b : Fin 4) (q k : Fin 4096) :
    val_main_v14 (F := Ideal) Q K (ix3 b q k)
      = (0 : EReal) + ∑ k' : Fin 4096,
          Ideal.exp (Cert.Attn.score Q K b q k' - Finset.univ.sup (Cert.Attn.score Q K b q)) := by
  have e : idx_main_v13 (idx_main_v14 (ix3 b q k)) = ix2 b q :=
    funext fun a => Fin.ext (by match a with | ⟨0, _⟩ => rfl | ⟨1, _⟩ => rfl)
  exact (val_main_v14_apply Q K (ix3 b q k)).trans ((val_main_v13_apply Q K _).trans
    ((congrArg (val_main_v12 (F := Ideal) Q K) e).trans (v12_eq Q K b q)))

/-- The softmax weight of key k in row (b, q). -/
theorem v15_eq (Q K : A3) (b : Fin 4) (q k : Fin 4096) :
    val_main_v15 (F := Ideal) Q K (ix3 b q k)
      = Ideal.div (Ideal.exp (Cert.Attn.score Q K b q k - Finset.univ.sup (Cert.Attn.score Q K b q)))
          ((0 : EReal) + ∑ k' : Fin 4096,
            Ideal.exp (Cert.Attn.score Q K b q k' - Finset.univ.sup (Cert.Attn.score Q K b q))) := by
  refine (val_main_v15_apply Q K (ix3 b q k)).trans ?_
  rw [v11_eq, v14_eq, Ideal.hostDivf_def]

/-! ## The result -/

/-- The program's result at (b, q, d) is the specification's output there. -/
theorem ref_at (Q K V : A3) (b : Fin 4) (q : Fin 4096) (d : Fin 64) :
    val_main_v16 (F := Ideal) Q K V (ix3 b q d) = Cert.Attn.attnAt Q K V b q d := by
  refine (val_main_v16_apply Q K V (ix3 b q d)).trans ?_
  unfold Cert.Attn.attnAt Cert.Attn.attnRow
  refine Finset.sum_congr rfl fun k _ => ?_
  have el : lidx_main_v16 (ix3 b q d) k = ix3 b q k :=
    funext fun a => Fin.ext (by match a with | ⟨0, _⟩ => rfl | ⟨1, _⟩ => rfl | ⟨2, _⟩ => rfl)
  have er : ridx_main_v16 (ix3 b q d) k = ix3 b k d :=
    funext fun a => Fin.ext (by match a with | ⟨0, _⟩ => rfl | ⟨1, _⟩ => rfl | ⟨2, _⟩ => rfl)
  exact congrArg₂ (· * ·) ((congrArg (val_main_v15 (F := Ideal) Q K) el).trans (v15_eq Q K b q k)) (congrArg V er)

/-- The reference program computes the attention function of the specification. -/
theorem ref_eq (Q K V : (⟨Cert.ReferenceIdeal.S4x4096x64, .f32⟩ : BufTy).Contents (Elt Ideal)) :
    Cert.ReferenceIdeal.Read.val_main_v16 (F := Ideal) Q K V = Cert.Attn.attn Q K V := by
  funext i
  rw [eq_ix3 i]
  exact ref_at Q K V (i 0) (i 1) (i 2)

end Cert.ReferenceIdeal.RefValue

end
-- ==== Proof.Finite.lean ====
/-
  From the precondition to real entries.

  The precondition says of each of the three arrays that every entry's absolute value is below +∞, and joins the three
  statements. An extended real whose absolute value is below +∞ is neither infinity, that is, a real number. So under
  the precondition every entry of the queries, the keys and the values is a real number.
-/
import proofs.«173579_j74363063763371_2_alg».proof.Defs
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

namespace Cert.Finite

open Idealize.ShloMosaic Cert.Pre_finite_inputs

/-- The scalar shape has one index. -/
instance : Subsingleton S_.Idx := ⟨fun a b => funext fun d => d.elim0⟩

/-- The pattern of +∞ is the top of the extended reals. -/
theorem posInf : Ideal.ofBits .f32 0x7F800000#32 = (⊤ : EReal) := by simp [Ideal.ofBits, Ideal.ieee]

/-- An extended real whose absolute value is below +∞ is a real number. -/
theorem isReal_of_abs_lt (x : EReal) (h : Ideal.cmp .olt (max x (-x)) (⊤ : EReal) = 1#1) : ∃ a : ℝ, x = (a : EReal) := by
  induction x using EReal.rec with
  | bot => exact absurd h (by simp [Ideal.cmp])
  | top => exact absurd h (by simp [Ideal.cmp])
  | coe a => exact ⟨a, rfl⟩

variable [Facts]

/-- An entry whose comparison against +∞ came out true is a real number. -/
theorem entry_isReal (X : FVec Ideal S4x4096x64 .f32) (i : S4x4096x64.Idx)
    (h : cmpf .olt (Host.absf X) (broadcastInDim S4x4096x64 ![] Facts.bcast_S_S4x4096x64 (constant (F := Ideal) S_ .f32 0x7F800000#32)) i = 1#1) :
    ∃ a : ℝ, X i = (a : EReal) := by
  refine isReal_of_abs_lt (X i) ?_
  have hb : broadcastInDim S4x4096x64 ![] Facts.bcast_S_S4x4096x64 (constant (F := Ideal) S_ .f32 0x7F800000#32) i = (⊤ : EReal) :=
    (broadcastInDim_apply _ Facts.bcast_S_S4x4096x64 _ i (fun a => a.elim0) (fun a => a.elim0)).trans posInf
  have hc : Ideal.cmp .olt (max (X i) (-(X i)))
      (broadcastInDim S4x4096x64 ![] Facts.bcast_S_S4x4096x64 (constant (F := Ideal) S_ .f32 0x7F800000#32) i) = 1#1 := h
  rw [hb] at hc
  exact hc

/-- UNDER THE PRECONDITION every entry of the three arrays is a real number. -/
theorem real_of_pre (Q K V : FVec Ideal S4x4096x64 .f32) (h : fn (F := Ideal) Q K V = fun _ => 1#1) :
    (∀ i, ∃ a : ℝ, Q i = (a : EReal)) ∧ (∀ i, ∃ a : ℝ, K i = (a : EReal)) ∧ (∀ i, ∃ a : ℝ, V i = (a : EReal)) := by
  have h0 := congrFun h ValueIdx.ix0
  dsimp only [fn] at h0
  obtain ⟨h12, h3⟩ := IntOp.andi_eq_one.mp h0
  obtain ⟨h1, h2⟩ := IntOp.andi_eq_one.mp h12
  exact ⟨fun i => entry_isReal Q i (Host.reduce_andi_all _ _ _ _ _ h1 i),
    fun i => entry_isReal K i (Host.reduce_andi_all _ _ _ _ _ h2 i),
    fun i => entry_isReal V i (Host.reduce_andi_all _ _ _ _ _ h3 i)⟩

end Cert.Finite

end
-- ==== Proof.lean ====
/-
  Flash attention against softmax attention, on the extended reals.

  The kernel handles 512 query rows per grid point. It scales the queries by 1/8, then meets the 4096 keys and values
  of each batch item in 8 tiles of 512: per tile it forms the scores, joins their row maxima to the running maxima,
  rescales the running sums and the accumulator by the exponential of the old maximum minus the new, and adds the
  tile's exponentials and their products with the values; at the end it divides the accumulator by the sums. The
  reference forms all the scores, scales them by 1 / √64, takes a softmax along the keys with the row maximum
  subtracted, and multiplies by the values.

  Read at exact extended reals both compute, at (b, q, d), the sum over the keys k of softmax(scores)(k) · V(b, k, d):
  √64 is 8; a finite non-negative factor moves across a finite sum; rescaling by exp (M' − M) turns weights taken at a
  maximum M' into weights taken at M; and a quotient of finite sums with a positive real denominator distributes over
  the numerator. The last two need the scores and the values to be real numbers, which the precondition gives.
  Each program also terminates without a fault and leaves its arguments as they were.
-/
import proofs.«173579_j74363063763371_2_alg».proof.Defs
import proofs.«173579_j74363063763371_2_alg».proof.Proof.Gen.Kernel
import proofs.«173579_j74363063763371_2_alg».proof.Proof.Gen.Kernel.Frame
import proofs.«173579_j74363063763371_2_alg».proof.Proof.Gen.KernelIdeal
import proofs.«173579_j74363063763371_2_alg».proof.Proof.Gen.KernelIdeal.Frame
import proofs.«173579_j74363063763371_2_alg».proof.Proof.Gen.KernelIdeal.Value
import proofs.«173579_j74363063763371_2_alg».proof.Proof.Gen.ReferenceIdeal
import proofs.«173579_j74363063763371_2_alg».proof.Proof.Gen.ReferenceIdeal.Run
import proofs.«173579_j74363063763371_2_alg».proof.Proof.Gen.ReferenceIdeal.Read
import proofs.«173579_j74363063763371_2_alg».proof.Proof.Gen.Pre_finite_inputs
import proofs.«173579_j74363063763371_2_alg».proof.Proof.KernelArray
import proofs.«173579_j74363063763371_2_alg».proof.Proof.RefValue
import proofs.«173579_j74363063763371_2_alg».proof.Proof.Finite
import Idealize.ShloMosaic.Adequacy
import Idealize.ShloMosaic.Init

noncomputable section

namespace Cert.Proof

open Idealize.ShloMosaic Idealize.SL.Sem

/-- The word-level kernel terminates, faults nowhere and leaves its arguments unchanged. -/
theorem frame_kernel : Cert.frame_Kernel := fun m ρ _ => Cert.Kernel.Gen.frame m ρ

/-- So does the kernel read at extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading at extended reals. -/
theorem preserves : Cert.preserves_Kernel_KernelIdeal := trivial

/-- From memories agreeing on the three arguments both programs end with the attention function of the arguments in
    their result: the kernel block by block under the precondition's real entries, the reference operation by
    operation. -/
theorem algebraic : Cert.algebraic_KernelIdeal_ReferenceIdeal := by
  intro m ρ m' ρ' hpre hagree
  refine ⟨fun c => Cert.Attn.attn (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.KernelIdeal.Value.run_blocks m ρ)
    obtain ⟨hQ, hK, hV⟩ := Cert.Finite.real_of_pre _ _ _ (hpre c)
    exact Cert.KernelIdeal.AttnValue.final m c hQ hK hV
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v16_eq, Cert.ReferenceIdeal.RefValue.ref_eq, (hagree c).1, (hagree c).2.1,
      (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
